-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x3 : S_.BroadcastsInDim S131072x3 (![] : Fin 0 → Fin S131072x3.rank)
  reducesTo_S131072x3_S_d0_1 : S131072x3.ReducesTo [0, 1] S_
  bcast_S_S1024x48 : S_.BroadcastsInDim S1024x48 (![] : Fin 0 → Fin S1024x48.rank)
  reducesTo_S1024x48_S_d0_1 : S1024x48.ReducesTo [0, 1] S_
  bcast_S_S48 : S_.BroadcastsInDim S48 (![] : Fin 0 → Fin S48.rank)
  reducesTo_S48_S_d0 : S48.ReducesTo [0] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S1024x4 .f32) (main_v50 : FVec F S1024x4 .f32) : IVec S_ 1 :=
  let main_v51 : IVec S1024x4 1 := cmpf .olt main_v49 main_v50
  let main_c_19 : IVec S_ 1 := constantI S_ 1 1#1
  let main_v52 : IVec S_ 1 := (fun x v => Host.reduce IntOp.andi x v reducesTo_S1024x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S3 .f32) (main_arg8 : FVec F S1024x1 .f32) (main_arg9 : FVec F S1 .f32) (main_arg10 : FVec F S1024x4 .f32) (main_arg11 : FVec F S4 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S1024x1 .f32 := Host.absf main_arg8
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1024x4 .f32 := Host.absf main_arg10
  let main_cst_18 : FVec F S_ .f32 := constant S_ .f32 0x7F800000#32
  let main_v50 : FVec F S1024x4 .f32 := broadcastInDim S1024x4 ![] bcast_S_S1024x4 main_cst_18
  fn_part3 (F := F) main_arg11 main_v48 main_v49 main_v50

def fn_part1 {F : FTy → Type} [FloatOps F] (main_arg4 : FVec F S1024x3 .f32) (main_arg5 : FVec F S3 .f32) (main_arg6 : FVec F S1024x3 .f32) (main_arg7 : FVec F S3 .f32) (main_arg8 : FVec F S1024x1 .f32) (main_arg9 : FVec F S1 .f32) (main_arg10 : FVec F S1024x4 .f32) (main_arg11 : FVec F S4 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S1024x3 .f32 := Host.absf main_arg4
  let main_cst_6 : FVec F S_ .f32 := constant S_ .f32 0x7F800000#32
  let main_v20 : FVec F S1024x3 .f32 := broadcastInDim S1024x3 ![] bcast_S_S1024x3 main_cst_6
  let main_v21 : IVec S1024x3 1 := cmpf .olt main_v19 main_v20
  let main_c_7 : IVec S_ 1 := constantI S_ 1 1#1
  let main_v22 : IVec S_ 1 := (fun x v => Host.reduce IntOp.andi x v reducesTo_S1024x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S1024x3 .f32 := Host.absf main_arg6
  let main_cst_10 : FVec F S_ .f32 := constant S_ .f32 0x7F800000#32
  let main_v30 : FVec F S1024x3 .f32 := broadcastInDim S1024x3 ![] bcast_S_S1024x3 main_cst_10
  let main_v31 : IVec S1024x3 1 := cmpf .olt main_v29 main_v30
  let main_c_11 : IVec S_ 1 := constantI S_ 1 1#1
  let main_v32 : IVec S_ 1 := (fun x v => Host.reduce IntOp.andi x v reducesTo_S1024x3_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x1024 .f32) (main_arg1 : FVec F S131072x3 .f32) (main_arg2 : FVec F S1024x48 .f32) (main_arg3 : FVec F S48 .f32) (main_arg4 : FVec F S1024x3 .f32) (main_arg5 : FVec F S3 .f32) (main_arg6 : FVec F S1024x3 .f32) (main_arg7 : FVec F S3 .f32) (main_arg8 : FVec F S1024x1 .f32) (main_arg9 : FVec F S1 .f32) (main_arg10 : FVec F S1024x4 .f32) (main_arg11 : FVec F S4 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x3 .f32 := Host.absf main_arg1
  let main_cst_0 : FVec F S_ .f32 := constant S_ .f32 0x7F800000#32
  let main_v5 : FVec F S131072x3 .f32 := broadcastInDim S131072x3 ![] bcast_S_S131072x3 main_cst_0
  let main_v6 : IVec S131072x3 1 := cmpf .olt main_v4 main_v5
  let main_c_1 : IVec S_ 1 := constantI S_ 1 1#1
  let main_v7 : IVec S_ 1 := (fun x v => Host.reduce IntOp.andi x v reducesTo_S131072x3_S_d0_1 h_S_) main_v6 main_c_1
  let main_v8 : IVec S_ 1 := andi main_v3 main_v7
  let main_v9 : FVec F S1024x48 .f32 := Host.absf main_arg2
  let main_cst_2 : FVec F S_ .f32 := constant S_ .f32 0x7F800000#32
  let main_v10 : FVec F S1024x48 .f32 := broadcastInDim S1024x48 ![] bcast_S_S1024x48 main_cst_2
  let main_v11 : IVec S1024x48 1 := cmpf .olt main_v9 main_v10
  let main_c_3 : IVec S_ 1 := constantI S_ 1 1#1
  let main_v12 : IVec S_ 1 := (fun x v => Host.reduce IntOp.andi x v reducesTo_S1024x48_S_d0_1 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_arg7 main_arg8 main_arg9 main_arg10 main_arg11 main_v13 main_v16
-- ==== Kernel.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S1024x59 : Shape := ⟨2, ![1024, 59]⟩
abbrev S59 : Shape := ⟨1, ![59]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S131072x62 : Shape := ⟨2, ![131072, 62]⟩
abbrev S2048x1024 : Shape := ⟨2, ![2048, 1024]⟩
abbrev S2048x3 : Shape := ⟨2, ![2048, 3]⟩
abbrev S2048x62 : Shape := ⟨2, ![2048, 62]⟩
abbrev S2048x128 : Shape := ⟨2, ![2048, 128]⟩
abbrev S2048x48 : Shape := ⟨2, ![2048, 48]⟩
abbrev S2048x1 : Shape := ⟨2, ![2048, 1]⟩
abbrev S2048x4 : Shape := ⟨2, ![2048, 4]⟩
abbrev S2048 : Shape := ⟨1, ![2048]⟩

abbrev nBuf : Space → Nat
  | .hbm => 22
  | .vmem => 8
  | .smem => 0
  | _ => 0

abbrev bufTy : (tb : Table) → Fin (tcTables nBuf tb) → BufTy
  | .hbm, ⟨0, _⟩ => ⟨S131072x1024, .f32⟩
  | .hbm, ⟨1, _⟩ => ⟨S131072x3, .f32⟩
  | .hbm, ⟨2, _⟩ => ⟨S1024x48, .f32⟩
  | .hbm, ⟨3, _⟩ => ⟨S48, .f32⟩
  | .hbm, ⟨4, _⟩ => ⟨S1024x3, .f32⟩
  | .hbm, ⟨5, _⟩ => ⟨S3, .f32⟩
  | .hbm, ⟨6, _⟩ => ⟨S1024x3, .f32⟩
  | .hbm, ⟨7, _⟩ => ⟨S3, .f32⟩
  | .hbm, ⟨8, _⟩ => ⟨S1024x1, .f32⟩
  | .hbm, ⟨9, _⟩ => ⟨S1, .f32⟩
  | .hbm, ⟨10, _⟩ => ⟨S1024x4, .f32⟩
  | .hbm, ⟨11, _⟩ => ⟨S4, .f32⟩
  | .hbm, ⟨12, _⟩ => ⟨S1024x59, .f32⟩
  | .hbm, ⟨13, _⟩ => ⟨S59, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S131072x62, .f32⟩
  | .local _ .vmem, ⟨0, _⟩ => ⟨S2048x1024, .f32⟩
  | .local _ .vmem, ⟨1, _⟩ => ⟨S2048x1024, .f32⟩
  | .local _ .vmem, ⟨2, _⟩ => ⟨S2048x3, .f32⟩
  | .local _ .vmem, ⟨3, _⟩ => ⟨S2048x3, .f32⟩
  | .local _ .vmem, ⟨4, _⟩ => ⟨S1024x128, .f32⟩
  | .local _ .vmem, ⟨5, _⟩ => ⟨S1x128, .f32⟩
  | .local _ .vmem, ⟨6, _⟩ => ⟨S2048x62, .f32⟩
  | .local _ .vmem, ⟨7, _⟩ => ⟨S2048x62, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x62 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S1024x48_S1024x3_S1024x3_S1024x1_S1024x4_S1024x59_d1 : Shape.Concatenates [S1024x48, S1024x3, S1024x3, S1024x1, S1024x4] S1024x59 1
  concatenates_S48_S3_S3_S1_S4_S59_d0 : Shape.Concatenates [S48, S3, S3, S1, S4] S59 0
  pads_S1024x59_S1024x128_000_0690 : S1024x59.Pads (![0, 0] : Fin 2 → Nat) ![0, 69] ![0, 0] S1024x128
  h_S_ : 0 < S_.numel
  pads_S59_S128_0690 : S59.Pads (![0] : Fin 1 → Nat) ![69] ![0] S128
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x48 : S2048x128.Slices ![0, 0] S2048x48
  slices_S2048x128_o0_48_S2048x3 : S2048x128.Slices ![0, 48] S2048x3
  slices_S2048x128_o0_51_S2048x3 : S2048x128.Slices ![0, 51] S2048x3
  slices_S2048x128_o0_54_S2048x1 : S2048x128.Slices ![0, 54] S2048x1
  slices_S2048x128_o0_55_S2048x4 : S2048x128.Slices ![0, 55] S2048x4
  inb_S2048x3_S2048x3_0_0 : ∀ a, (![0, 0] : Fin 2 → Nat) a + S2048x3.size a ≤ S2048x3.size a
  h_S2048x3 : 0 < S2048x3.numel
  reduces_S2048x4_S2048 : S2048x4.Reduces [1] S2048
  shapeCasts_S2048_S2048x1 : S2048.ShapeCasts S2048x1
  broadcasts_S2048x1_S2048x4 : S2048x1.Broadcasts S2048x4
  concatenates_S2048x48_S2048x3_S2048x3_S2048x3_S2048x1_S2048x4_S2048x62_d1 : Shape.Concatenates [S2048x48, S2048x3, S2048x3, S2048x3, S2048x1, S2048x4] S2048x62 1
  inb_S2048x62_S2048x62_0_0 : ∀ a, (![0, 0] : Fin 2 → Nat) a + S2048x62.size a ≤ S2048x62.size a
  h_S2048x62 : 0 < S2048x62.numel
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S131072x3.size a
  hwx0_1 : ∀ i : grid0.Coords, EltTy.bits .f32 = 32 ∨ (Rect.block (s := S131072x3) S2048x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x62.size a ≤ S131072x62.size a
  hwx0_4 : ∀ i : grid0.Coords, EltTy.bits .f32 = 32 ∨ (Rect.block (s := S131072x62) S2048x62.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x62.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x3 : Shape := ⟨2, ![131072, 3]⟩
abbrev S1024x48 : Shape := ⟨2, ![1024, 48]⟩
abbrev S48 : Shape := ⟨1, ![48]⟩
abbrev S1024x3 : Shape := ⟨2, ![1024, 3]⟩
abbrev S3 : Shape := ⟨1, ![3]⟩
abbrev S1024x1 : Shape := ⟨2, ![1024, 1]⟩
abbrev S1 : Shape := ⟨1, ![1]⟩
abbrev S1024x4 : Shape := ⟨2, ![1024, 4]⟩
abbrev S4 : Shape := ⟨1, ![4]⟩
abbrev S131072x48 : Shape := ⟨2, ![131072, 48]⟩
abbrev S1x48 : Shape := ⟨2, ![1, 48]⟩
abbrev S1x3 : Shape := ⟨2, ![1, 3]⟩
abbrev S_ : Shape := ⟨0, ![]⟩
abbrev S131072x1 : Shape := ⟨2, ![131072, 1]⟩
abbrev S1x1 : Shape := ⟨2, ![1, 1]⟩
abbrev S131072x4 : Shape := ⟨2, ![131072, 4]⟩
abbrev S1x4 : Shape := ⟨2, ![1, 4]⟩
abbrev S131072 : Shape := ⟨1, ![131072]⟩
abbrev S131072x62 : Shape := ⟨2, ![131072, 62]⟩

abbrev nBuf : Space → Nat
  | .hbm => 75
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x3, .f32⟩
  | .hbm, ⟨2, _⟩ => ⟨S1024x48, .f32⟩
  | .hbm, ⟨3, _⟩ => ⟨S48, .f32⟩
  | .hbm, ⟨4, _⟩ => ⟨S1024x3, .f32⟩
  | .hbm, ⟨5, _⟩ => ⟨S3, .f32⟩
  | .hbm, ⟨6, _⟩ => ⟨S1024x3, .f32⟩
  | .hbm, ⟨7, _⟩ => ⟨S3, .f32⟩
  | .hbm, ⟨8, _⟩ => ⟨S1024x1, .f32⟩
  | .hbm, ⟨9, _⟩ => ⟨S1, .f32⟩
  | .hbm, ⟨10, _⟩ => ⟨S1024x4, .f32⟩
  | .hbm, ⟨11, _⟩ => ⟨S4, .f32⟩
  | .hbm, ⟨12, _⟩ => ⟨S131072x48, .f32⟩
  | .hbm, ⟨13, _⟩ => ⟨S1x48, .f32⟩
  | .hbm, ⟨14, _⟩ => ⟨S131072x48, .f32⟩
  | .hbm, ⟨15, _⟩ => ⟨S131072x48, .f32⟩
  | .hbm, ⟨16, _⟩ => ⟨S131072x3, .f32⟩
  | .hbm, ⟨17, _⟩ => ⟨S1x3, .f32⟩
  | .hbm, ⟨18, _⟩ => ⟨S131072x3, .f32⟩
  | .hbm, ⟨19, _⟩ => ⟨S131072x3, .f32⟩
  | .hbm, ⟨20, _⟩ => ⟨S131072x3, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S131072x3, .f32⟩
  | .hbm, ⟨25, _⟩ => ⟨S131072x3, .f32⟩
  | .hbm, ⟨26, _⟩ => ⟨S_, .f32⟩
  | .hbm, ⟨27, _⟩ => ⟨S131072x3, .f32⟩
  | .hbm, ⟨28, _⟩ => ⟨S131072x3, .f32⟩
  | .hbm, ⟨29, _⟩ => ⟨S131072x3, .f32⟩
  | .hbm, ⟨30, _⟩ => ⟨S1x3, .f32⟩
  | .hbm, ⟨31, _⟩ => ⟨S131072x3, .f32⟩
  | .hbm, ⟨32, _⟩ => ⟨S131072x3, .f32⟩
  | .hbm, ⟨33, _⟩ => ⟨S131072x3, .f32⟩
  | .hbm, ⟨34, _⟩ => ⟨S131072x3, .f32⟩
  | .hbm, ⟨35, _⟩ => ⟨S_, .f32⟩
  | .hbm, ⟨36, _⟩ => ⟨S131072x3, .f32⟩
  | .hbm, ⟨37, _⟩ => ⟨S131072x3, .f32⟩
  | .hbm, ⟨38, _⟩ => ⟨S_, .f32⟩
  | .hbm, ⟨39, _⟩ => ⟨S131072x3, .f32⟩
  | .hbm, ⟨40, _⟩ => ⟨S131072x3, .f32⟩
  | .hbm, ⟨41, _⟩ => ⟨S_, .f32⟩
  | .hbm, ⟨42, _⟩ => ⟨S131072x3, .f32⟩
  | .hbm, ⟨43, _⟩ => ⟨S131072x3, .f32⟩
  | .hbm, ⟨44, _⟩ => ⟨S_, .f32⟩
  | .hbm, ⟨45, _⟩ => ⟨S131072x3, .f32⟩
  | .hbm, ⟨46, _⟩ => ⟨S131072x3, .f32⟩
  | .hbm, ⟨47, _⟩ => ⟨S131072x3, .f32⟩
  | .hbm, ⟨48, _⟩ => ⟨S131072x1, .f32⟩
  | .hbm, ⟨49, _⟩ => ⟨S1x1, .f32⟩
  | .hbm, ⟨50, _⟩ => ⟨S131072x1, .f32⟩
  | .hbm, ⟨51, _⟩ => ⟨S131072x1, .f32⟩
  | .hbm, ⟨52, _⟩ => ⟨S131072x1, .f32⟩
  | .hbm, ⟨53, _⟩ => ⟨S131072x1, .f32⟩
  | .hbm, ⟨54, _⟩ => ⟨S_, .f32⟩
  | .hbm, ⟨55, _⟩ => ⟨S131072x1, .f32⟩
  | .hbm, ⟨56, _⟩ => ⟨S131072x1, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x4, .f32⟩
  | .hbm, ⟨61, _⟩ => ⟨S1x4, .f32⟩
  | .hbm, ⟨62, _⟩ => ⟨S131072x4, .f32⟩
  | .hbm, ⟨63, _⟩ => ⟨S131072x4, .f32⟩
  | .hbm, ⟨64, _⟩ => ⟨S131072x4, .f32⟩
  | .hbm, ⟨65, _⟩ => ⟨S_, .f32⟩
  | .hbm, ⟨66, _⟩ => ⟨S131072, .f32⟩
  | .hbm, ⟨67, _⟩ => ⟨S131072x1, .f32⟩
  | .hbm, ⟨68, _⟩ => ⟨S131072x1, .f32⟩
  | .hbm, ⟨69, _⟩ => ⟨S_, .f32⟩
  | .hbm, ⟨70, _⟩ => ⟨S131072x1, .f32⟩
  | .hbm, ⟨71, _⟩ => ⟨S131072x1, .f32⟩
  | .hbm, ⟨72, _⟩ => ⟨S131072x4, .f32⟩
  | .hbm, ⟨73, _⟩ => ⟨S131072x4, .f32⟩
  | .hbm, ⟨74, _⟩ => ⟨S131072x62, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_call1_v2 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]

class Facts₀ : Prop where
  bcast_S48_S1x48_1 : S48.BroadcastsInDim S1x48 (![1] : Fin 1 → Fin S1x48.rank)
  bcast_S1x48_S131072x48_0_1 : S1x48.BroadcastsInDim S131072x48 (![0, 1] : Fin 2 → Fin S131072x48.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S_S131072x3 : S_.BroadcastsInDim S131072x3 (![] : Fin 0 → Fin S131072x3.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  reducesTo_S131072x4_S131072_d1 : S131072x4.ReducesTo [1] S131072
  h_S_ : 0 < S_.numel
  bcast_S131072_S131072x1_0 : S131072.BroadcastsInDim S131072x1 (![0] : Fin 1 → Fin S131072x1.rank)
  bcast_S131072x1_S131072x4_0_1 : S131072x1.BroadcastsInDim S131072x4 (![0, 1] : Fin 2 → Fin S131072x4.rank)
  concatenates_S131072x48_S131072x3_S131072x3_S131072x3_S131072x1_S131072x4_S131072x62_d1 : Shape.Concatenates [S131072x48, S131072x3, S131072x3, S131072x3, S131072x1, S131072x4] S131072x62 1
  dot_S131072x1024_S1024x48_S131072x48_1_0_0_1_n_n_wf : DotDims.WF S131072x1024 S1024x48 S131072x48 [1] [0] [0] [1] [] []
  dot_S131072x1024_S1024x3_S131072x3_1_0_0_1_n_n_wf : DotDims.WF S131072x1024 S1024x3 S131072x3 [1] [0] [0] [1] [] []
  dot_S131072x1024_S1024x1_S131072x1_1_0_0_1_n_n_wf : DotDims.WF S131072x1024 S1024x1 S131072x1 [1] [0] [0] [1] [] []
  dot_S131072x1024_S1024x4_S131072x4_1_0_0_1_n_n_wf : DotDims.WF S131072x1024 S1024x4 S131072x4 [1] [0] [0] [1] [] []

variable [Facts₀]

def dot_S131072x1024_S1024x48_S131072x48_1_0_0_1_n_n : DotDims S131072x1024 S1024x48 S131072x48 where
  lhsContracting := [1]
  rhsContracting := [0]
  lhsNonContracting := [0]
  rhsNonContracting := [1]
  lhsBatch := []
  rhsBatch := []
  wf := dot_S131072x1024_S1024x48_S131072x48_1_0_0_1_n_n_wf
def dot_S131072x1024_S1024x3_S131072x3_1_0_0_1_n_n : DotDims S131072x1024 S1024x3 S131072x3 where
  lhsContracting := [1]
  rhsContracting := [0]
  lhsNonContracting := [0]
  rhsNonContracting := [1]
  lhsBatch := []
  rhsBatch := []
  wf := dot_S131072x1024_S1024x3_S131072x3_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf
def dot_S131072x1024_S1024x4_S131072x4_1_0_0_1_n_n : DotDims S131072x1024 S1024x4 S131072x4 where
  lhsContracting := [1]
  rhsContracting := [0]
  lhsNonContracting := [0]
  rhsNonContracting := [1]
  lhsBatch := []
  rhsBatch := []
  wf := dot_S131072x1024_S1024x4_S131072x4_1_0_0_1_n_n_wf

class Facts : Prop extends Facts₀ where

variable [Facts]
-- ==== Proof.FrameBits.lean ====
/-
  The frame of `Cert.Kernel` at any float instance: every weakly fair execution of @main terminates without a fault, and
  the twelve argument arrays end as they were launched.

  @main is five stretches of host operations — the five weight matrices laid side by side into one 1024×59 matrix
  and the five bias vectors end to end into one vector of 59, both padded with zeros to 128 columns, the bias
  recast as a 1×128 row — and then ONE region over a grid of 64 points. At point `t` the region stages rows
  2048·t … 2048·t+2047 of `x` and of `pts`, the whole padded weight matrix and the whole bias row (these two
  fetched once, at the first point), runs the body, and writes the 2048×62 result block back to rows
  2048·t … of the result. The body loads the four input blocks whole, computes one 2048×62 value from them, loads
  the result block (a value it never uses) and overwrites it whole with the computed value.

  None of the host operations writes an argument array, the region's input windows are only read, and the result
  array is no argument: that is the frame. The same run names the result array after the region as what the 64
  write-backs leave of it, which the value proof reads.
-/
import proofs.«115522_j11982958756329_2_alg».proof.Proof.Gen.Kernel.Launch
import proofs.«115522_j11982958756329_2_alg».proof.Proof.Gen.Kernel.Skeleton
import proofs.«115522_j11982958756329_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the five stretches of host
    operations (the concatenations and a constant; the matrix's padding; a constant; the vector's padding; the
    recast to a row). Kept folded. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region: the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer none of the host operations writes is found as launched. The operations write `main_v0`, `main_v1`,
    `main_c`, `main_call0_v0`, `main_v2`, `main_c_0`, `main_call1_v0`, `main_v3`, `main_v4`. -/
theorem V_unwritten (c : Dev nD) (b : Ref sig .tc)
    (h0 : b ≠ main_v0) (h1 : b ≠ main_v1) (h2 : b ≠ main_c) (h3 : b ≠ main_call0_v0) (h4 : b ≠ main_v2)
    (h5 : b ≠ main_c_0) (h6 : b ≠ main_call1_v0) (h7 : b ≠ main_v3) (h8 : b ≠ main_v4) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

theorem V_main_arg0 (c : Dev nD) : V m c main_arg0 = m ((c : Thread nD τ).loc main_arg0) :=
  V_unwritten m c _ (by decide) (by decide) (by decide) (by decide) (by decide) (by decide) (by decide) (by decide) (by decide)
theorem V_main_arg1 (c : Dev nD) : V m c main_arg1 = m ((c : Thread nD τ).loc main_arg1) :=
  V_unwritten m c _ (by decide) (by decide) (by decide) (by decide) (by decide) (by decide) (by decide) (by decide) (by decide)
theorem V_main_arg2 (c : Dev nD) : V m c main_arg2 = m ((c : Thread nD τ).loc main_arg2) :=
  V_unwritten m c _ (by decide) (by decide) (by decide) (by decide) (by decide) (by decide) (by decide) (by decide) (by decide)
theorem V_main_arg3 (c : Dev nD) : V m c main_arg3 = m ((c : Thread nD τ).loc main_arg3) :=
  V_unwritten m c _ (by decide) (by decide) (by decide) (by decide) (by decide) (by decide) (by decide) (by decide) (by decide)
theorem V_main_arg4 (c : Dev nD) : V m c main_arg4 = m ((c : Thread nD τ).loc main_arg4) :=
  V_unwritten m c _ (by decide) (by decide) (by decide) (by decide) (by decide) (by decide) (by decide) (by decide) (by decide)
theorem V_main_arg5 (c : Dev nD) : V m c main_arg5 = m ((c : Thread nD τ).loc main_arg5) :=
  V_unwritten m c _ (by decide) (by decide) (by decide) (by decide) (by decide) (by decide) (by decide) (by decide) (by decide)
theorem V_main_arg6 (c : Dev nD) : V m c main_arg6 = m ((c : Thread nD τ).loc main_arg6) :=
  V_unwritten m c _ (by decide) (by decide) (by decide) (by decide) (by decide) (by decide) (by decide) (by decide) (by decide)
theorem V_main_arg7 (c : Dev nD) : V m c main_arg7 = m ((c : Thread nD τ).loc main_arg7) :=
  V_unwritten m c _ (by decide) (by decide) (by decide) (by decide) (by decide) (by decide) (by decide) (by decide) (by decide)
theorem V_main_arg8 (c : Dev nD) : V m c main_arg8 = m ((c : Thread nD τ).loc main_arg8) :=
  V_unwritten m c _ (by decide) (by decide) (by decide) (by decide) (by decide) (by decide) (by decide) (by decide) (by decide)
theorem V_main_arg9 (c : Dev nD) : V m c main_arg9 = m ((c : Thread nD τ).loc main_arg9) :=
  V_unwritten m c _ (by decide) (by decide) (by decide) (by decide) (by decide) (by decide) (by decide) (by decide) (by decide)
theorem V_main_arg10 (c : Dev nD) : V m c main_arg10 = m ((c : Thread nD τ).loc main_arg10) :=
  V_unwritten m c _ (by decide) (by decide) (by decide) (by decide) (by decide) (by decide) (by decide) (by decide) (by decide)
theorem V_main_arg11 (c : Dev nD) : V m c main_arg11 = m ((c : Thread nD τ).loc main_arg11) :=
  V_unwritten m c _ (by decide) (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the result block -/

abbrev r0_0 : Rect S2048x1024 := Rect.unit (s := S2048x1024) ![0, 0] S2048x1024.size inb_S2048x1024_S2048x1024_0_0
abbrev r0_1 : Rect S2048x3 := Rect.unit (s := S2048x3) ![0, 0] S2048x3.size inb_S2048x3_S2048x3_0_0
abbrev r0_2 : Rect S1024x128 := Rect.unit (s := S1024x128) ![0, 0] S1024x128.size inb_S1024x128_S1024x128_0_0
abbrev r0_3 : Rect S1x128 := Rect.unit (s := S1x128) ![0, 0] S1x128.size inb_S1x128_S1x128_0_0
abbrev r0_4 : Rect S2048x62 := Rect.unit (s := S2048x62) ![0, 0] S2048x62.size inb_S2048x62_S2048x62_0_0

/-- The result window's staging buffer after the body: its one whole-block store of the body's value of the four
    input blocks. -/
def out0_4 (x0 : Vec F S2048x1024 .f32) (x1 : Vec F S2048x3 .f32) (x2 : Vec F S1024x128 .f32) (x3 : Vec F S1x128 .f32) : Vec F S2048x62 .f32 :=
  View.canon [⟨r0_4, k0_pay1 (View.ld x0 r0_0) (View.ld x2 r0_2) (View.ld x3 r0_3) (View.ld x1 r0_1)⟩]

/-- The one store covers the block. -/
theorem cover0_4 (p0 : Vec F S2048x62 .f32) (y : S2048x62.Idx) :
    ∃ pc ∈ ([⟨r0_4, p0⟩] : List (View.Piece (Elt F) S2048x62 .f32)), y ∈ pc.1.set :=
  View.cover_of_tiled [⟨r0_4, p0⟩] S2048x62.size (by rfl) y

/-! ## The body's triple -/

set_option maxHeartbeats 1000000 in
/-- The body on whole staging memrefs — the inputs' at contents `xW`, the result's at anything — runs to the
    continuation with the inputs' as they were and the result's at `out0_4` of the inputs'. -/
theorem sound_kernel (c : Dev nD) (E : Set ℕ) (i : grid0.Coords)
    (arg1 : Memref sig .tc .vmem S2048x1024 .f32) (harg1 : arg1.IsWhole) (arg2 : Memref sig .tc .vmem S2048x3 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x62 .f32) (harg5 : arg5.IsWhole)
    (x0 : Vec F S2048x1024 .f32) (x1 : Vec F S2048x3 .f32) (x2 : Vec F S1024x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t`
    each input's buffer at its block and the result's at `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Input window 0's current staging buffer holds its block at every point: fetched there, or the block index has not
    moved since it was. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's current staging buffer holds its block at every point: fetched there, or the block index has not
    moved since it was. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's current staging buffer holds its block at every point: fetched there, or the block index has not
    moved since it was. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's current staging buffer holds its block at every point: fetched there, or the block index has not
    moved since it was. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    write-backs leave of it and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The argument arrays after the run -/

/-- After the run an argument a window stages is as launched: the window only reads it; -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
/-- and an argument no window stages is among the buffers the region leaves alone. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (by decide)).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (by decide)).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (by decide)).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (by decide)).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (by decide)).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (by decide)).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (by decide)).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (by decide)).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (by decide)).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (by decide)).trans (V_main_arg11 m c)

/-- After the run the result array is what the 64 write-backs leave of it. -/
theorem post_main_v5 (r : PUnit × MemSt nD τ sig (Elt F)) (h : Pipeline.FramePost cfgs (dats m) 0 (V m) r) (c : Dev nD) :
    r.2.mem ((c : Thread nD τ).loc main_v5) = (dats m 0 c).arrAt 4 cfg0.N :=
  (h c).1 4

/-- THE FRAME: every weakly fair execution of @main terminates without a fault and the twelve argument arrays end
    as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨kept_main_arg0 m r h c, kept_main_arg1 m r h c, kept_main_arg2 m r h c, kept_main_arg3 m r h c,
      kept_main_arg4 m r h c, kept_main_arg5 m r h c, kept_main_arg6 m r h c, kept_main_arg7 m r h c, kept_main_arg8 m r h c,
      kept_main_arg9 m r h c, kept_main_arg10 m r h c, kept_main_arg11 m r h c⟩) (run_main m ρ)

end Cert.Kernel.Hand

end
-- ==== Proof.Spec.lean ====
/-
  One row of the projection head, on the extended reals.

  A row has 59 pre-activations, laid out in 128 lanes: lanes 0–47 the spherical-harmonics head, 48–50 the scaling
  head, 51–53 the position-offset head, 54 the opacity head, 55–58 the rotation head (lanes 59–127 are padding and
  are never read). From them and the row's three anchor coordinates the 62 outputs are:
    0–47   the pre-activation itself;
    48–50  min(hi, max(0, exp y))               — the exponential clipped to [0, hi], hi the f32 word of 0.2;
    51–53  (σ(y) − ½) · hi                       — the offset, σ the logistic function 1 / (1 + e^(−y));
    54–56  anchor + the same offset               — of lanes 51–53 again;
    57     σ(y₅₄);
    58–61  y / max(√(Σ over the four rotation lanes of y²), floor) — the quaternion normalised, the floor the f32
           word of 1e-12.
  The constants stay as their f32 words: both programs spell the same words, so their values are never needed.
-/
import Idealize.ShloMosaic.PureOps.Ideal
import Idealize.ShloMosaic.PureOps.Ideal.Laws

noncomputable section

open scoped BigOperators

namespace Cert.Heads

open Idealize.ShloMosaic

/-- The upper clip of the scaling head and the step of the offset head: the f32 word of 0.2. -/
def clipHi : EReal := Ideal.ofBits .f32 0x3E4CCCCD#32
/-- The f32 word of 0.5. -/
def half : EReal := Ideal.ofBits .f32 0x3F000000#32
/-- The floor of the quaternion's norm: the f32 word of 1e-12. -/
def normFloor : EReal := Ideal.ofBits .f32 0x2B8CBCCC#32

/-- The scaling head: the exponential clipped to [0, hi]. -/
def clipExp (v : EReal) : EReal := min clipHi (max (Ideal.ofBits .f32 0x00000000#32) (Ideal.exp v))
/-- The offset head: the logistic function recentred and scaled. -/
def offs (v : EReal) : EReal := (Ideal.logistic v - half) * clipHi
/-- The rotation head: a quadruple divided by its Euclidean norm, the norm floored. -/
def unit4 (y : Fin 4 → EReal) (d : Fin 4) : EReal :=
  Ideal.div (y d) (max (Ideal.sqrt (∑ e : Fin 4, y e * y e)) normFloor)

/-- The 62 outputs of a row from its 128 lanes of pre-activations `Y` and its anchor `P`. -/
def outRow (Y : Fin 128 → EReal) (P : Fin 3 → EReal) (j : Fin 62) : EReal :=
  if h0 : j.val < 48 then Y ⟨j.val, by omega⟩
  else if h1 : j.val < 51 then clipExp (Y ⟨j.val, by omega⟩)
  else if h2 : j.val < 54 then offs (Y ⟨j.val, by omega⟩)
  else if h3 : j.val < 57 then P ⟨j.val - 54, by omega⟩ + offs (Y ⟨j.val - 3, by omega⟩)
  else if h4 : j.val < 58 then Ideal.logistic (Y ⟨54, by omega⟩)
  else unit4 (fun e => Y ⟨55 + e.val, by omega⟩) ⟨j.val - 58, by omega⟩

theorem outRow_shs (Y : Fin 128 → EReal) (P : Fin 3 → EReal) (e : Fin 48) :
    outRow Y P ⟨e.val, by omega⟩ = Y ⟨e.val, by omega⟩ := by
  unfold outRow; rw [dif_pos e.isLt]

theorem outRow_scaling (Y : Fin 128 → EReal) (P : Fin 3 → EReal) (e : Fin 3) :
    outRow Y P ⟨48 + e.val, by omega⟩ = clipExp (Y ⟨48 + e.val, by omega⟩) := by
  unfold outRow
  rw [dif_neg (show ¬ (48 + e.val < 48) by omega), dif_pos (show 48 + e.val < 51 by omega)]

theorem outRow_offset (Y : Fin 128 → EReal) (P : Fin 3 → EReal) (e : Fin 3) :
    outRow Y P ⟨51 + e.val, by omega⟩ = offs (Y ⟨51 + e.val, by omega⟩) := by
  unfold outRow
  rw [dif_neg (show ¬ (51 + e.val < 48) by omega), dif_neg (show ¬ (51 + e.val < 51) by omega),
    dif_pos (show 51 + e.val < 54 by omega)]

theorem outRow_xyz (Y : Fin 128 → EReal) (P : Fin 3 → EReal) (e : Fin 3) :
    outRow Y P ⟨54 + e.val, by omega⟩ = P e + offs (Y ⟨51 + e.val, by omega⟩) := by
  unfold outRow
  rw [dif_neg (show ¬ (54 + e.val < 48) by omega), dif_neg (show ¬ (54 + e.val < 51) by omega),
    dif_neg (show ¬ (54 + e.val < 54) by omega), dif_pos (show 54 + e.val < 57 by omega)]
  have h1 : (⟨54 + e.val - 54, by omega⟩ : Fin 3) = e := Fin.ext (by show 54 + e.val - 54 = e.val; omega)
  have h2 : (⟨54 + e.val - 3, by omega⟩ : Fin 128) = ⟨51 + e.val, by omega⟩ := Fin.ext (by show 54 + e.val - 3 = 51 + e.val; omega)
  rw [h1, h2]

theorem outRow_opacity (Y : Fin 128 → EReal) (P : Fin 3 → EReal) :
    outRow Y P ⟨57, by omega⟩ = Ideal.logistic (Y ⟨54, by omega⟩) := by
  unfold outRow
  rw [dif_neg (show ¬ (57 < 48) by omega), dif_neg (show ¬ (57 < 51) by omega),
    dif_neg (show ¬ (57 < 54) by omega), dif_neg (show ¬ (57 < 57) by omega), dif_pos (show 57 < 58 by omega)]

theorem outRow_rotation (Y : Fin 128 → EReal) (P : Fin 3 → EReal) (e : Fin 4) :
    outRow Y P ⟨58 + e.val, by omega⟩ = unit4 (fun d => Y ⟨55 + d.val, by omega⟩) e := by
  unfold outRow
  rw [dif_neg (show ¬ (58 + e.val < 48) by omega), dif_neg (show ¬ (58 + e.val < 51) by omega),
    dif_neg (show ¬ (58 + e.val < 54) by omega), dif_neg (show ¬ (58 + e.val < 57) by omega),
    dif_neg (show ¬ (58 + e.val < 58) by omega)]
  have h1 : (⟨58 + e.val - 58, by omega⟩ : Fin 4) = e := Fin.ext (by show 58 + e.val - 58 = e.val; omega)
  rw [h1]

/-- Every output column is in exactly one of the six heads. -/
theorem col_cases (j : Fin 62) :
    (∃ e : Fin 48, j = ⟨e.val, by omega⟩) ∨ (∃ e : Fin 3, j = ⟨48 + e.val, by omega⟩) ∨ (∃ e : Fin 3, j = ⟨51 + e.val, by omega⟩)
      ∨ (∃ e : Fin 3, j = ⟨54 + e.val, by omega⟩) ∨ j = ⟨57, by omega⟩ ∨ (∃ e : Fin 4, j = ⟨58 + e.val, by omega⟩) := by
  have hj := j.isLt
  by_cases h0 : j.val < 48
  · exact .inl ⟨⟨j.val, h0⟩, Fin.ext rfl⟩
  by_cases h1 : j.val < 51
  · exact .inr (.inl ⟨⟨j.val - 48, by omega⟩, Fin.ext (by show j.val = 48 + (j.val - 48); omega)⟩)
  by_cases h2 : j.val < 54
  · exact .inr (.inr (.inl ⟨⟨j.val - 51, by omega⟩, Fin.ext (by show j.val = 51 + (j.val - 51); omega)⟩))
  by_cases h3 : j.val < 57
  · exact .inr (.inr (.inr (.inl ⟨⟨j.val - 54, by omega⟩, Fin.ext (by show j.val = 54 + (j.val - 54); omega)⟩)))
  by_cases h4 : j.val < 58
  · exact .inr (.inr (.inr (.inr (.inl (Fin.ext (by show j.val = 57; omega))))))
  · exact .inr (.inr (.inr (.inr (.inr ⟨⟨j.val - 58, by omega⟩, Fin.ext (by show j.val = 58 + (j.val - 58); omega)⟩))))

end Cert.Heads

end
-- ==== Proof.Payload.lean ====
/-
  The kernel's arithmetic, read one output element at a time.

  One block of the kernel takes 2048 rows of x (1024 features each), the 1024 × 128 weight matrix, the 1 × 128 bias row
  and the rows' anchors (2048 × 3), and produces 2048 × 62 outputs. Read at row q and column j, what it computes is the
  row function of the specification, Cert.Heads.outRow, applied to the row's 128 pre-activations
      Y c = (Σ over k of x(q, k) · W(k, c)) + b(0, c)
  and to the row's anchor. The narrowing of both product operands to bf16 is the identity on the extended reals; the
  accumulator of the product is the zero splat; the six column ranges of the output are the six pieces of one
  concatenation along the columns.
-/
import proofs.«115522_j11982958756329_2_alg».proof.Proof.Gen.KernelIdeal.Skeleton
import proofs.«115522_j11982958756329_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two layout operations read at an index given by coordinates -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product and the pre-activations -/

/-- The left operand's index at output `i` and contraction index `t`: its row is the output's row … -/
theorem lhs_0 (i : S2048x128.Idx) (t : dot_S2048x1024_S1024x128_S2048x128_1_0_0_1_n_n.contr.Idx) :
    (dot_S2048x1024_S1024x128_S2048x128_1_0_0_1_n_n.lhsIdx i t 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- … and its column the contraction coordinate. -/
theorem lhs_1 (i : S2048x128.Idx) (t : dot_S2048x1024_S1024x128_S2048x128_1_0_0_1_n_n.contr.Idx) :
    (dot_S2048x1024_S1024x128_S2048x128_1_0_0_1_n_n.lhsIdx i t 1).val = (t ⟨0, by decide⟩).val :=
  dot_S2048x1024_S1024x128_S2048x128_1_0_0_1_n_n.lhsIdx_val_of_single rfl i t
/-- The right operand's row is the contraction coordinate … -/
theorem rhs_0 (i : S2048x128.Idx) (t : dot_S2048x1024_S1024x128_S2048x128_1_0_0_1_n_n.contr.Idx) :
    (dot_S2048x1024_S1024x128_S2048x128_1_0_0_1_n_n.rhsIdx i t 0).val = (t ⟨0, by decide⟩).val :=
  dot_S2048x1024_S1024x128_S2048x128_1_0_0_1_n_n.rhsIdx_val_of_single rfl i t
/-- … and its column the output's column. -/
theorem rhs_1 (i : S2048x128.Idx) (t : dot_S2048x1024_S1024x128_S2048x128_1_0_0_1_n_n.contr.Idx) :
    (dot_S2048x1024_S1024x128_S2048x128_1_0_0_1_n_n.rhsIdx i t 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into the zero splat, at `(q, c)`: the sum over the 1024 features of row `q` of the left operand times
    column `c` of the right. -/
theorem matmul_ix2 {φ₁ φ₂ : FTy} (A : FVec Ideal S2048x1024 φ₁) (B : FVec Ideal S1024x128 φ₂) (q : Fin 2048) (c : Fin 128) :
    matmul dot_S2048x1024_S1024x128_S2048x128_1_0_0_1_n_n none A B (constant S2048x128 .f32 0x00000000#32) (ix2 q c)
      = ∑ k : Fin 1024, A (ix2 q k) * B (ix2 k c) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 q c) ((contrEquiv1 dot_S2048x1024_S1024x128_S2048x128_1_0_0_1_n_n 1024 rfl rfl).symm k) = ix2 q k := funext fun a => Fin.ext (by
    match a with
    | ⟨0, _⟩ => exact lhs_0 _ _
    | ⟨1, _⟩ => exact (lhs_1 _ _).trans hk)
  have er : dot_S2048x1024_S1024x128_S2048x128_1_0_0_1_n_n.rhsIdx (ix2 q c) ((contrEquiv1 dot_S2048x1024_S1024x128_S2048x128_1_0_0_1_n_n 1024 rfl rfl).symm k) = ix2 k c := funext fun a => Fin.ext (by
    match a with
    | ⟨0, _⟩ => exact (rhs_0 _ _).trans hk
    | ⟨1, _⟩ => exact rhs_1 _ _)
  rw [el, er]

/-- The pre-activations at `(q, c)`: the product plus the bias row's entry `c`. Narrowing to bf16 is the identity on the
    extended reals, and so is a cast of a shape to itself. -/
theorem pre_apply (x0 : FVec Ideal S2048x1024 .f32) (w : FVec Ideal S1024x128 .f32) (b : FVec Ideal S1x128 .f32)
    (q : Fin 2048) (c : Fin 128) :
    addf (matmul dot_S2048x1024_S1024x128_S2048x128_1_0_0_1_n_n none (truncf .bf16 x0 bitsLt_bf16_f32)
          (truncf .bf16 (shapeCast S1024x128 w shapeCasts_S1024x128_S1024x128) bitsLt_bf16_f32) (constant S2048x128 .f32 0x00000000#32))
        (broadcastTo S2048x128 (shapeCast S1x128 b shapeCasts_S1x128_S1x128) broadcasts_S1x128_S2048x128) (ix2 q c)
      = (∑ k : Fin 1024, x0 (ix2 q k) * w (ix2 k c)) + b (ix2 (0 : Fin 1) c) := by
  rw [shapeCast_self, shapeCast_self]
  refine (addf_apply _ _ _).trans ?_
  rw [matmul_ix2, broadcastTo_1b_ab_apply]
  rfl

/-! ## The six pieces of the output, each read at a row and a column of its own

Each is stated over ANY 2048 × 128 array `y` of pre-activations, so that the product is never opened again. -/

section Pieces
variable (y : FVec Ideal S2048x128 .f32)

/-- A column slice of the pre-activations from lane `o`, at `(q, e)`: lane `o + e` of row `q`. -/
theorem lanes_apply {m : ℕ} (o : ℕ) (h : S2048x128.Slices ![0, o] ⟨2, ![2048, m]⟩) (q : Fin 2048) (e : Fin m)
    (hb : o + e.val < 128) :
    extractStridedSlice ⟨2, ![2048, m]⟩ ![0, o] y h (ix2 q e) = y (ix2 q ⟨o + e.val, hb⟩) :=
  slice2_axis1_apply o y h q e ⟨o + e.val, hb⟩ rfl

/-- Columns 0–47: the pre-activation itself. -/
theorem shs_apply (q : Fin 2048) (e : Fin 48) :
    extractStridedSlice S2048x48 ![0, 0] y slices_S2048x128_o0_0_S2048x48 (ix2 q e) = y (ix2 q ⟨e.val, by omega⟩) :=
  slice2_axis1_apply 0 y _ q e ⟨e.val, by omega⟩ (Nat.zero_add _).symm

/-- Columns 48–50: the exponential of lanes 48–50, clipped below by zero and above by the f32 word of 0.2. -/
theorem scaling_apply (q : Fin 2048) (e : Fin 3) :
    minimumf (broadcast S2048x3 (Scalar.ofBits .f32 0x3E4CCCCD#32))
        (maximumf (broadcast S2048x3 (Scalar.ofBits .f32 0x00000000#32)) (exp (extractStridedSlice S2048x3 ![0, 48] y slices_S2048x128_o0_48_S2048x3))) (ix2 q e)
      = Cert.Heads.clipExp (y (ix2 q ⟨48 + e.val, by omega⟩)) := by
  have hs := lanes_apply y 48 slices_S2048x128_o0_48_S2048x3 q e (by omega)
  show Cert.Heads.clipExp (extractStridedSlice S2048x3 ![0, 48] y slices_S2048x128_o0_48_S2048x3 (ix2 q e)) = _
  rw [hs]

/-- Columns 51–53: the logistic function of lanes 51–53, recentred by the word of 0.5 and scaled by the word of 0.2. -/
theorem offset_apply (q : Fin 2048) (e : Fin 3) :
    mulf (subf (logistic (extractStridedSlice S2048x3 ![0, 51] y slices_S2048x128_o0_51_S2048x3)) (broadcast S2048x3 (Scalar.ofBits .f32 0x3F000000#32)))
        (broadcast S2048x3 (Scalar.ofBits .f32 0x3E4CCCCD#32)) (ix2 q e)
      = Cert.Heads.offs (y (ix2 q ⟨51 + e.val, by omega⟩)) := by
  have hs := lanes_apply y 51 slices_S2048x128_o0_51_S2048x3 q e (by omega)
  show Cert.Heads.offs (extractStridedSlice S2048x3 ![0, 51] y slices_S2048x128_o0_51_S2048x3 (ix2 q e)) = _
  rw [hs]

/-- Columns 54–56: the anchor plus the same offset. -/
theorem xyz_apply (p : FVec Ideal S2048x3 .f32) (q : Fin 2048) (e : Fin 3) :
    addf p (mulf (subf (logistic (extractStridedSlice S2048x3 ![0, 51] y slices_S2048x128_o0_51_S2048x3)) (broadcast S2048x3 (Scalar.ofBits .f32 0x3F000000#32)))
        (broadcast S2048x3 (Scalar.ofBits .f32 0x3E4CCCCD#32))) (ix2 q e)
      = p (ix2 q e) + Cert.Heads.offs (y (ix2 q ⟨51 + e.val, by omega⟩)) :=
  (addf_apply _ _ _).trans (congrArg (p (ix2 q e) + ·) (offset_apply y q e))

/-- Column 57: the logistic function of lane 54. -/
theorem opacity_apply (q : Fin 2048) :
    logistic (extractStridedSlice S2048x1 ![0, 54] y slices_S2048x128_o0_54_S2048x1) (ix2 q (0 : Fin 1)) = Ideal.logistic (y (ix2 q ⟨54, by omega⟩)) := by
  have hs := slice2_axis1_apply 54 y slices_S2048x128_o0_54_S2048x1 q (0 : Fin 1) ⟨54, by omega⟩ rfl
  show Ideal.logistic (extractStridedSlice S2048x1 ![0, 54] y slices_S2048x128_o0_54_S2048x1 (ix2 q (0 : Fin 1))) = _
  rw [hs]

/-- The sum along the four lanes of a 2048 × 4 array, at row `q`. -/
theorem laneSum_apply (src : FVec Ideal S2048x4 .f32) (h : S2048x4.Reduces [1] S2048) (hφ : FKind.Formats .f32)
    (hacc : (0x00000000#32 : BitVec 32) = 0x00000000#32) (q : Fin 2048) :
    multiReduction .add [1] S2048 src 0x00000000#32 h hφ hacc (ix1 q) = ∑ k : Fin 4, src (ix2 q k) := by
  refine (Ideal.multiReduction_add_single src _ h hφ hacc (ix1 q)).trans ?_
  refine Finset.sum_congr rfl fun k _ => ?_
  exact congrArg src (funext fun a => Fin.ext (by match a with | ⟨0, _⟩ => rfl | ⟨1, _⟩ => rfl))

/-- The quaternion head over any 2048 × 4 array `r`: each entry divided by the row's Euclidean norm, floored. -/
theorem unit_apply (r : FVec Ideal S2048x4 .f32) (q : Fin 2048) (e : Fin 4) :
    divf r (broadcastTo S2048x4 (maximumf (sqrt (shapeCast S2048x1
        (multiReduction .add [1] S2048 (mulf r r) 0x00000000#32 reduces_S2048x4_S2048 (.inl rfl) rfl) shapeCasts_S2048_S2048x1))
        (broadcast S2048x1 (Scalar.ofBits .f32 0x2B8CBCCC#32))) broadcasts_S2048x1_S2048x4) (ix2 q e)
      = Cert.Heads.unit4 (fun d : Fin 4 => r (ix2 q d)) e := by
  refine (divf_apply _ _ _).trans ?_
  unfold Cert.Heads.unit4
  refine congrArg (Ideal.div (r (ix2 q e))) ?_
  refine (broadcastTo_a1_ab_apply _ _ q e).trans ?_
  refine (maximumf_apply _ _ _).trans ?_
  refine congrArg (max · Cert.Heads.normFloor) ?_
  show Ideal.sqrt (shapeCast S2048x1 _ shapeCasts_S2048_S2048x1 (ix2 q (0 : Fin 1))) = _
  refine congrArg Ideal.sqrt ?_
  refine (shapeCast_a_a1_apply _ _ q (0 : Fin 1)).trans ?_
  exact laneSum_apply (mulf r r) _ _ _ q

/-- Columns 58–61: lanes 55–58 divided by their Euclidean norm, the norm floored by the f32 word of 1e-12. -/
theorem rotation_apply (q : Fin 2048) (e : Fin 4) :
    divf (extractStridedSlice S2048x4 ![0, 55] y slices_S2048x128_o0_55_S2048x4) (broadcastTo S2048x4 (maximumf (sqrt (shapeCast S2048x1
        (multiReduction .add [1] S2048 (mulf (extractStridedSlice S2048x4 ![0, 55] y slices_S2048x128_o0_55_S2048x4) (extractStridedSlice S2048x4 ![0, 55] y slices_S2048x128_o0_55_S2048x4)) 0x00000000#32
          reduces_S2048x4_S2048 (.inl rfl) rfl) shapeCasts_S2048_S2048x1))
        (broadcast S2048x1 (Scalar.ofBits .f32 0x2B8CBCCC#32))) broadcasts_S2048x1_S2048x4) (ix2 q e)
      = Cert.Heads.unit4 (fun d : Fin 4 => y (ix2 q ⟨55 + d.val, by omega⟩)) e := by
  refine (unit_apply _ q e).trans ?_
  exact congrArg (fun Y : Fin 4 → EReal => Cert.Heads.unit4 Y e)
    (funext fun d => lanes_apply y 55 slices_S2048x128_o0_55_S2048x4 q d (by omega))

end Pieces

/-! ## The concatenation of six column blocks, read at a column of each -/

section Concat
variable {α : Type} (v10 : S2048x48.Idx → α) (v19 v24 v26 : S2048x3.Idx → α) (v27 : S2048x1.Idx → α) (v35 : S2048x4.Idx → α)
  (h : Shape.Concatenates [S2048x48, S2048x3, S2048x3, S2048x3, S2048x1, S2048x4] S2048x62 1)

/-- Columns 0–47 of the concatenation are the first piece. -/
theorem concat_shs (q : Fin 2048) (e : Fin 48) :
    concatenate S2048x62 1 [⟨S2048x48, v10⟩, ⟨S2048x3, v19⟩, ⟨S2048x3, v24⟩, ⟨S2048x3, v26⟩, ⟨S2048x1, v27⟩, ⟨S2048x4, v35⟩] h (ix2 q (⟨e.val, by omega⟩ : Fin 62)) = v10 (ix2 q e) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨e.val, by omega⟩ : Fin 62)) 0 (by show (0 : ℕ) < 6; decide) S2048x48 v10 rfl rfl 0 rfl (ix2 q e)
    (fun a ha => by match a with | ⟨0, _⟩ => rfl | ⟨1, _⟩ => exact absurd (Fin.ext rfl) ha) (by show 0 + e.val = e.val; omega)

/-- Columns 48–50 are the second piece. -/
theorem concat_scaling (q : Fin 2048) (e : Fin 3) :
    concatenate S2048x62 1 [⟨S2048x48, v10⟩, ⟨S2048x3, v19⟩, ⟨S2048x3, v24⟩, ⟨S2048x3, v26⟩, ⟨S2048x1, v27⟩, ⟨S2048x4, v35⟩] h (ix2 q (⟨48 + e.val, by omega⟩ : Fin 62)) = v19 (ix2 q e) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨48 + e.val, by omega⟩ : Fin 62)) 1 (by show (1 : ℕ) < 6; decide) S2048x3 v19 rfl rfl 48 rfl (ix2 q e)
    (fun a ha => by match a with | ⟨0, _⟩ => rfl | ⟨1, _⟩ => exact absurd (Fin.ext rfl) ha) rfl

/-- Columns 51–53 are the third piece. -/
theorem concat_offset (q : Fin 2048) (e : Fin 3) :
    concatenate S2048x62 1 [⟨S2048x48, v10⟩, ⟨S2048x3, v19⟩, ⟨S2048x3, v24⟩, ⟨S2048x3, v26⟩, ⟨S2048x1, v27⟩, ⟨S2048x4, v35⟩] h (ix2 q (⟨51 + e.val, by omega⟩ : Fin 62)) = v24 (ix2 q e) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨51 + e.val, by omega⟩ : Fin 62)) 2 (by show (2 : ℕ) < 6; decide) S2048x3 v24 rfl rfl 51 rfl (ix2 q e)
    (fun a ha => by match a with | ⟨0, _⟩ => rfl | ⟨1, _⟩ => exact absurd (Fin.ext rfl) ha) rfl

/-- Columns 54–56 are the fourth piece. -/
theorem concat_xyz (q : Fin 2048) (e : Fin 3) :
    concatenate S2048x62 1 [⟨S2048x48, v10⟩, ⟨S2048x3, v19⟩, ⟨S2048x3, v24⟩, ⟨S2048x3, v26⟩, ⟨S2048x1, v27⟩, ⟨S2048x4, v35⟩] h (ix2 q (⟨54 + e.val, by omega⟩ : Fin 62)) = v26 (ix2 q e) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨54 + e.val, by omega⟩ : Fin 62)) 3 (by show (3 : ℕ) < 6; decide) S2048x3 v26 rfl rfl 54 rfl (ix2 q e)
    (fun a ha => by match a with | ⟨0, _⟩ => rfl | ⟨1, _⟩ => exact absurd (Fin.ext rfl) ha) rfl

/-- Column 57 is the fifth piece's one column. -/
theorem concat_opacity (q : Fin 2048)  :
    concatenate S2048x62 1 [⟨S2048x48, v10⟩, ⟨S2048x3, v19⟩, ⟨S2048x3, v24⟩, ⟨S2048x3, v26⟩, ⟨S2048x1, v27⟩, ⟨S2048x4, v35⟩] h (ix2 q (⟨57, by omega⟩ : Fin 62)) = v27 (ix2 q (0 : Fin 1)) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨57, by omega⟩ : Fin 62)) 4 (by show (4 : ℕ) < 6; decide) S2048x1 v27 rfl rfl 57 rfl (ix2 q (0 : Fin 1))
    (fun a ha => by match a with | ⟨0, _⟩ => rfl | ⟨1, _⟩ => exact absurd (Fin.ext rfl) ha) rfl

/-- Columns 58–61 are the sixth piece. -/
theorem concat_rotation (q : Fin 2048) (e : Fin 4) :
    concatenate S2048x62 1 [⟨S2048x48, v10⟩, ⟨S2048x3, v19⟩, ⟨S2048x3, v24⟩, ⟨S2048x3, v26⟩, ⟨S2048x1, v27⟩, ⟨S2048x4, v35⟩] h (ix2 q (⟨58 + e.val, by omega⟩ : Fin 62)) = v35 (ix2 q e) :=
  concatenate_apply_piece (t := S2048x62) 1 [⟨S2048x48, v10⟩, ⟨S2048x3, v19⟩, ⟨S2048x3, v24⟩, ⟨S2048x3, v26⟩, ⟨S2048x1, v27⟩, ⟨S2048x4, v35⟩] h (ix2 q (⟨58 + e.val, by omega⟩ : Fin 62)) 5 (by show (5 : ℕ) < 6; decide) S2048x4 v35 rfl rfl 58 rfl (ix2 q e)
    (fun a ha => by match a with | ⟨0, _⟩ => rfl | ⟨1, _⟩ => exact absurd (Fin.ext rfl) ha) rfl

end Concat

/-! ## The whole payload at an index -/

/-- The block's output at row `q` and column `j` is the specification's row function of the row's pre-activations and
    anchor: the column falls in one of the six heads, the concatenation reads that head's piece, and the piece is the
    head's formula of the pre-activations. -/
theorem pay_apply (x0 : Vec Ideal S2048x1024 .f32) (w : Vec Ideal S1024x128 .f32) (b : Vec Ideal S1x128 .f32) (p : Vec Ideal S2048x3 .f32)
    (q : Fin 2048) (j : Fin 62) :
    k0_pay1 (F := Ideal) x0 w b p (ix2 q j)
      = Cert.Heads.outRow (fun c : Fin 128 => (∑ k : Fin 1024, x0 (ix2 q k) * w (ix2 k c)) + b (ix2 (0 : Fin 1) c))
          (fun e : Fin 3 => p (ix2 q e)) j := by
  rcases Cert.Heads.col_cases j with ⟨e, rfl⟩ | ⟨e, rfl⟩ | ⟨e, rfl⟩ | ⟨e, rfl⟩ | rfl | ⟨e, rfl⟩
  · rw [Cert.Heads.outRow_shs]
    unfold k0_pay1
    refine (concat_shs _ _ _ _ _ _ _ q e).trans ?_
    refine (shs_apply _ q e).trans ?_
    exact pre_apply x0 w b q _
  · rw [Cert.Heads.outRow_scaling]
    unfold k0_pay1
    refine (concat_scaling _ _ _ _ _ _ _ q e).trans ?_
    refine (scaling_apply _ q e).trans ?_
    exact congrArg Cert.Heads.clipExp (pre_apply x0 w b q _)
  · rw [Cert.Heads.outRow_offset]
    unfold k0_pay1
    refine (concat_offset _ _ _ _ _ _ _ q e).trans ?_
    refine (offset_apply _ q e).trans ?_
    exact congrArg Cert.Heads.offs (pre_apply x0 w b q _)
  · rw [Cert.Heads.outRow_xyz]
    unfold k0_pay1
    refine (concat_xyz _ _ _ _ _ _ _ q e).trans ?_
    refine (xyz_apply _ p q e).trans ?_
    exact congrArg (fun v : EReal => p (ix2 q e) + Cert.Heads.offs v) (pre_apply x0 w b q _)
  · rw [Cert.Heads.outRow_opacity]
    unfold k0_pay1
    refine (concat_opacity _ _ _ _ _ _ _ q).trans ?_
    refine (opacity_apply _ q).trans ?_
    exact congrArg Ideal.logistic (pre_apply x0 w b q _)
  · rw [Cert.Heads.outRow_rotation]
    unfold k0_pay1
    refine (concat_rotation _ _ _ _ _ _ _ q e).trans ?_
    refine (rotation_apply _ q e).trans ?_
    exact congrArg (fun Y : Fin 4 → EReal => Cert.Heads.unit4 Y e) (funext fun d => pre_apply x0 w b q _)

end Cert.KernelIdeal.Pay

end
-- ==== Proof.FrameIdeal.lean ====
/-
  The frame of `Cert.KernelIdeal` at any float instance: every weakly fair execution of @main terminates without a fault, and
  the twelve argument arrays end as they were launched.

  @main is five stretches of host operations — the five weight matrices laid side by side into one 1024×59 matrix
  and the five bias vectors end to end into one vector of 59, both padded with zeros to 128 columns, the bias
  recast as a 1×128 row — and then ONE region over a grid of 64 points. At point `t` the region stages rows
  2048·t … 2048·t+2047 of `x` and of `pts`, the whole padded weight matrix and the whole bias row (these two
  fetched once, at the first point), runs the body, and writes the 2048×62 result block back to rows
  2048·t … of the result. The body loads the four input blocks whole, computes one 2048×62 value from them, loads
  the result block (a value it never uses) and overwrites it whole with the computed value.

  None of the host operations writes an argument array, the region's input windows are only read, and the result
  array is no argument: that is the frame. The same run names the result array after the region as what the 64
  write-backs leave of it, which the value proof reads.
-/
import proofs.«115522_j11982958756329_2_alg».proof.Proof.Gen.KernelIdeal.Launch
import proofs.«115522_j11982958756329_2_alg».proof.Proof.Gen.KernelIdeal.Skeleton
import proofs.«115522_j11982958756329_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch memory after the five stretches of host
    operations (the concatenations and a constant; the matrix's padding; a constant; the vector's padding; the
    recast to a row). Kept folded. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region: the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer none of the host operations writes is found as launched. The operations write `main_v0`, `main_v1`,
    `main_c`, `main_call0_v0`, `main_v2`, `main_c_0`, `main_call1_v0`, `main_v3`, `main_v4`. -/
theorem V_unwritten (c : Dev nD) (b : Ref sig .tc)
    (h0 : b ≠ main_v0) (h1 : b ≠ main_v1) (h2 : b ≠ main_c) (h3 : b ≠ main_call0_v0) (h4 : b ≠ main_v2)
    (h5 : b ≠ main_c_0) (h6 : b ≠ main_call1_v0) (h7 : b ≠ main_v3) (h8 : b ≠ main_v4) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.nary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8⟩))

theorem V_main_arg0 (c : Dev nD) : V m c main_arg0 = m ((c : Thread nD τ).loc main_arg0) :=
  V_unwritten m c _ (by decide) (by decide) (by decide) (by decide) (by decide) (by decide) (by decide) (by decide) (by decide)
theorem V_main_arg1 (c : Dev nD) : V m c main_arg1 = m ((c : Thread nD τ).loc main_arg1) :=
  V_unwritten m c _ (by decide) (by decide) (by decide) (by decide) (by decide) (by decide) (by decide) (by decide) (by decide)
theorem V_main_arg2 (c : Dev nD) : V m c main_arg2 = m ((c : Thread nD τ).loc main_arg2) :=
  V_unwritten m c _ (by decide) (by decide) (by decide) (by decide) (by decide) (by decide) (by decide) (by decide) (by decide)
theorem V_main_arg3 (c : Dev nD) : V m c main_arg3 = m ((c : Thread nD τ).loc main_arg3) :=
  V_unwritten m c _ (by decide) (by decide) (by decide) (by decide) (by decide) (by decide) (by decide) (by decide) (by decide)
theorem V_main_arg4 (c : Dev nD) : V m c main_arg4 = m ((c : Thread nD τ).loc main_arg4) :=
  V_unwritten m c _ (by decide) (by decide) (by decide) (by decide) (by decide) (by decide) (by decide) (by decide) (by decide)
theorem V_main_arg5 (c : Dev nD) : V m c main_arg5 = m ((c : Thread nD τ).loc main_arg5) :=
  V_unwritten m c _ (by decide) (by decide) (by decide) (by decide) (by decide) (by decide) (by decide) (by decide) (by decide)
theorem V_main_arg6 (c : Dev nD) : V m c main_arg6 = m ((c : Thread nD τ).loc main_arg6) :=
  V_unwritten m c _ (by decide) (by decide) (by decide) (by decide) (by decide) (by decide) (by decide) (by decide) (by decide)
theorem V_main_arg7 (c : Dev nD) : V m c main_arg7 = m ((c : Thread nD τ).loc main_arg7) :=
  V_unwritten m c _ (by decide) (by decide) (by decide) (by decide) (by decide) (by decide) (by decide) (by decide) (by decide)
theorem V_main_arg8 (c : Dev nD) : V m c main_arg8 = m ((c : Thread nD τ).loc main_arg8) :=
  V_unwritten m c _ (by decide) (by decide) (by decide) (by decide) (by decide) (by decide) (by decide) (by decide) (by decide)
theorem V_main_arg9 (c : Dev nD) : V m c main_arg9 = m ((c : Thread nD τ).loc main_arg9) :=
  V_unwritten m c _ (by decide) (by decide) (by decide) (by decide) (by decide) (by decide) (by decide) (by decide) (by decide)
theorem V_main_arg10 (c : Dev nD) : V m c main_arg10 = m ((c : Thread nD τ).loc main_arg10) :=
  V_unwritten m c _ (by decide) (by decide) (by decide) (by decide) (by decide) (by decide) (by decide) (by decide) (by decide)
theorem V_main_arg11 (c : Dev nD) : V m c main_arg11 = m ((c : Thread nD τ).loc main_arg11) :=
  V_unwritten m c _ (by decide) (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the result block -/

abbrev r0_0 : Rect S2048x1024 := Rect.unit (s := S2048x1024) ![0, 0] S2048x1024.size inb_S2048x1024_S2048x1024_0_0
abbrev r0_1 : Rect S2048x3 := Rect.unit (s := S2048x3) ![0, 0] S2048x3.size inb_S2048x3_S2048x3_0_0
abbrev r0_2 : Rect S1024x128 := Rect.unit (s := S1024x128) ![0, 0] S1024x128.size inb_S1024x128_S1024x128_0_0
abbrev r0_3 : Rect S1x128 := Rect.unit (s := S1x128) ![0, 0] S1x128.size inb_S1x128_S1x128_0_0
abbrev r0_4 : Rect S2048x62 := Rect.unit (s := S2048x62) ![0, 0] S2048x62.size inb_S2048x62_S2048x62_0_0

/-- The result window's staging buffer after the body: its one whole-block store of the body's value of the four
    input blocks. -/
def out0_4 (x0 : Vec F S2048x1024 .f32) (x1 : Vec F S2048x3 .f32) (x2 : Vec F S1024x128 .f32) (x3 : Vec F S1x128 .f32) : Vec F S2048x62 .f32 :=
  View.canon [⟨r0_4, k0_pay1 (View.ld x0 r0_0) (View.ld x2 r0_2) (View.ld x3 r0_3) (View.ld x1 r0_1)⟩]

/-- The one store covers the block. -/
theorem cover0_4 (p0 : Vec F S2048x62 .f32) (y : S2048x62.Idx) :
    ∃ pc ∈ ([⟨r0_4, p0⟩] : List (View.Piece (Elt F) S2048x62 .f32)), y ∈ pc.1.set :=
  View.cover_of_tiled [⟨r0_4, p0⟩] S2048x62.size (by rfl) y

/-! ## The body's triple -/

set_option maxHeartbeats 1000000 in
/-- The body on whole staging memrefs — the inputs' at contents `xW`, the result's at anything — runs to the
    continuation with the inputs' as they were and the result's at `out0_4` of the inputs'. -/
theorem sound_kernel (c : Dev nD) (E : Set ℕ) (i : grid0.Coords)
    (arg1 : Memref sig .tc .vmem S2048x1024 .f32) (harg1 : arg1.IsWhole) (arg2 : Memref sig .tc .vmem S2048x3 .f32) (harg2 : arg2.IsWhole)
    (arg3 : Memref sig .tc .vmem S1024x128 .f32) (harg3 : arg3.IsWhole) (arg4 : Memref sig .tc .vmem S1x128 .f32) (harg4 : arg4.IsWhole)
    (arg5 : Memref sig .tc .vmem S2048x62 .f32) (harg5 : arg5.IsWhole)
    (x0 : Vec F S2048x1024 .f32) (x1 : Vec F S2048x3 .f32) (x2 : Vec F S1024x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t`
    each input's buffer at its block and the result's at `out0_4` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- Input window 0's current staging buffer holds its block at every point: fetched there, or the block index has not
    moved since it was. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's current staging buffer holds its block at every point: fetched there, or the block index has not
    moved since it was. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's current staging buffer holds its block at every point: fetched there, or the block index has not
    moved since it was. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's current staging buffer holds its block at every point: fetched there, or the block index has not
    moved since it was. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each array of the pipeline is what the
    write-backs leave of it and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The argument arrays after the run -/

/-- After the run an argument a window stages is as launched: the window only reads it; -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
/-- and an argument no window stages is among the buffers the region leaves alone. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (by decide)).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (by decide)).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (by decide)).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (by decide)).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (by decide)).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (by decide)).trans (V_main_arg7 m c)
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (by decide)).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (by decide)).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (by decide)).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (by decide)).trans (V_main_arg11 m c)

/-- After the run the result array is what the 64 write-backs leave of it. -/
theorem post_main_v5 (r : PUnit × MemSt nD τ sig (Elt F)) (h : Pipeline.FramePost cfgs (dats m) 0 (V m) r) (c : Dev nD) :
    r.2.mem ((c : Thread nD τ).loc main_v5) = (dats m 0 c).arrAt 4 cfg0.N :=
  (h c).1 4

/-- THE FRAME: every weakly fair execution of @main terminates without a fault and the twelve argument arrays end
    as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨kept_main_arg0 m r h c, kept_main_arg1 m r h c, kept_main_arg2 m r h c, kept_main_arg3 m r h c,
      kept_main_arg4 m r h c, kept_main_arg5 m r h c, kept_main_arg6 m r h c, kept_main_arg7 m r h c, kept_main_arg8 m r h c,
      kept_main_arg9 m r h c, kept_main_arg10 m r h c, kept_main_arg11 m r h c⟩) (run_main m ρ)

end Cert.KernelIdeal.Hand

end
-- ==== Proof.KernelValue.lean ====
/-
  The result array of the idealized kernel after the run, as ONE function of the arrays the region finds.

  Point t of the grid writes back rows 2048·t … 2048·t + 2047 of the result, and what it writes at row q of its
  block is the row function of the projection head (Spec) at the pre-activations of row r = 2048·t + q of x against the
  padded weight matrix and bias row, and at row r of pts: the block of x (of pts) staged at t is rows 2048·t … of
  x (of pts), and the weight matrix and the bias row are staged whole. The 64 blocks tile the 131072 rows, so the
  result array after the run is that row function at every index.
-/
import proofs.«115522_j11982958756329_2_alg».proof.Proof.FrameIdeal
import proofs.«115522_j11982958756329_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
-- the body's value read at an index: a 2048×62 block entry is the row function of the block's own pre-activations
variable (hpay : ∀ (x0 : Vec Ideal S2048x1024 .f32) (w : Vec Ideal S1024x128 .f32) (b : Vec Ideal S1x128 .f32) (p : Vec Ideal S2048x3 .f32)
    (q : Fin 2048) (j : Fin 62),
    k0_pay1 (F := Ideal) x0 w b p (ix2 q j)
      = Cert.Heads.outRow (fun c : Fin 128 => (∑ k : Fin 1024, x0 (ix2 q k) * w (ix2 k c)) + b (ix2 (0 : Fin 1) c))
          (fun e : Fin 3 => p (ix2 q e)) j)

/-- The four arrays the region reads, as it finds them, as functions into the extended reals: x, pts, the padded weight
    matrix, the padded bias row. -/
abbrev Xa (c : Dev nD) : S131072x1024.Idx → EReal := V m c main_arg0
abbrev Pa (c : Dev nD) : S131072x3.Idx → EReal := V m c main_arg1
abbrev Wa (c : Dev nD) : S1024x128.Idx → EReal := V m c main_v2
abbrev Ba (c : Dev nD) : S1x128.Idx → EReal := V m c main_v4

theorem hz : (![0, 0] : Fin 2 → Nat) = fun _ => 0 := funext fun a => by fin_cases a <;> rfl

/-- The printed index maps over the grid: the row windows (x, pts, the result) sit at block row t, the weight matrix
    and the bias row at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 := lt_of_lt_of_eq t.isLt N_0

/-- Row q of the block at point t is row 2048·t + q of the array. -/
def rowOf (t : Fin cfg0.N) (q : Fin 2048) : Fin 131072 := ⟨t.val * 2048 + q.val, by have := t_lt t; omega⟩

/-- The block of x staged at point t is rows 2048·t … of x. -/
theorem blk0 (c : Dev nD) (t : Fin cfg0.N) (q : Fin 2048) (k : Fin 1024) :
    iblk m c 0 t (ix2 q k) = Xa m c (ix2 (rowOf t q) k) := by
  show Xa m c (((cfg0.win 0).blk t).view.emb (ix2 q k)) = _
  obtain ⟨e0, e1, -⟩ := idx_facts t
  refine congrArg (Xa m c) (funext fun a => Fin.ext ?_)
  match a with
  | ⟨0, _⟩ => show win0_0.index t (0 : Fin 2) * 2048 + 1 * q.val = t.val * 2048 + q.val; rw [e0]; omega
  | ⟨1, _⟩ => show win0_0.index t (1 : Fin 2) * 1024 + 1 * k.val = k.val; rw [e1]; omega

/-- The block of pts staged at point t is rows 2048·t … of pts. -/
theorem blk1 (c : Dev nD) (t : Fin cfg0.N) (q : Fin 2048) (e : Fin 3) :
    iblk m c 1 t (ix2 q e) = Pa m c (ix2 (rowOf t q) e) := by
  show Pa m c (((cfg0.win 1).blk t).view.emb (ix2 q e)) = _
  obtain ⟨-, -, e0, e1, -⟩ := idx_facts t
  refine congrArg (Pa m c) (funext fun a => Fin.ext ?_)
  match a with
  | ⟨0, _⟩ => show win0_1.index t (0 : Fin 2) * 2048 + 1 * q.val = t.val * 2048 + q.val; rw [e0]; omega
  | ⟨1, _⟩ => show win0_1.index t (1 : Fin 2) * 3 + 1 * e.val = e.val; rw [e1]; omega

/-- The weight matrix is staged whole. -/
theorem blk2 (c : Dev nD) (t : Fin cfg0.N) (k : Fin 1024) (cc : Fin 128) :
    iblk m c 2 t (ix2 k cc) = Wa m c (ix2 k cc) := by
  show Wa m c (((cfg0.win 2).blk t).view.emb (ix2 k cc)) = _
  obtain ⟨-, -, -, -, e0, e1, -⟩ := idx_facts t
  refine congrArg (Wa m c) (funext fun a => Fin.ext ?_)
  match a with
  | ⟨0, _⟩ => show win0_2.index t (0 : Fin 2) * 1024 + 1 * k.val = k.val; rw [e0]; omega
  | ⟨1, _⟩ => show win0_2.index t (1 : Fin 2) * 128 + 1 * cc.val = cc.val; rw [e1]; omega

/-- The bias row is staged whole. -/
theorem blk3 (c : Dev nD) (t : Fin cfg0.N) (u : Fin 1) (cc : Fin 128) :
    iblk m c 3 t (ix2 u cc) = Ba m c (ix2 u cc) := by
  show Ba m c (((cfg0.win 3).blk t).view.emb (ix2 u cc)) = _
  obtain ⟨-, -, -, -, -, -, e0, e1, -⟩ := idx_facts t
  refine congrArg (Ba m c) (funext fun a => Fin.ext ?_)
  match a with
  | ⟨0, _⟩ => show win0_3.index t (0 : Fin 2) * 1 + 1 * u.val = u.val; rw [e0]; omega
  | ⟨1, _⟩ => show win0_3.index t (1 : Fin 2) * 128 + 1 * cc.val = cc.val; rw [e1]; omega

/-- A row's 128 lanes of pre-activations, from the arrays the region finds: row r of x against the padded weight
    matrix, plus the padded bias row. -/
def lanes (c : Dev nD) (r : Fin 131072) : Fin 128 → EReal := fun cc =>
  (∑ k : Fin 1024, Xa m c (ix2 r k) * Wa m c (ix2 k cc))
    + Ba m c (ix2 (0 : Fin 1) cc)

/-- The result array as one function of the arrays the region finds: the row function at each row's lanes and anchor. -/
def G (c : Dev nD) : S131072x62.Idx → EReal := fun i =>
  Cert.Heads.outRow (lanes m c ⟨(i 0).val, (i 0).isLt⟩)
    (fun e : Fin 3 => Pa m c (ix2 (⟨(i 0).val, (i 0).isLt⟩ : Fin 131072) e)) ⟨(i 1).val, (i 1).isLt⟩

/-- An element of the result block at point t sits at row 2048·t + q of the result. -/
theorem emb4 (t : Fin cfg0.N) (q : Fin 2048) (j : Fin 62) :
    ((cfg0.win 4).blk t).view.emb (ix2 q j) = (ix2 (rowOf t q) j : S131072x62.Idx) := by
  obtain ⟨-, -, -, -, -, -, -, -, e0, e1⟩ := idx_facts t
  funext a; apply Fin.ext
  match a with
  | ⟨0, _⟩ => show win0_4.index t (0 : Fin 2) * 2048 + 1 * q.val = t.val * 2048 + q.val; rw [e0]; omega
  | ⟨1, _⟩ => show win0_4.index t (1 : Fin 2) * 62 + 1 * j.val = j.val; rw [e1]; omega

include hpay in
/-- WHAT POINT t WRITES BACK is block t of `G`. -/
theorem flushed4_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S2048x1024) hz, View.ld_unit_zero (S := S2048x3) hz, View.ld_unit_zero (S := S1024x128) hz,
    View.ld_unit_zero (S := S1x128) hz]
  funext y
  obtain ⟨q, j, rfl⟩ : ∃ (q : Fin 2048) (j : Fin 62), y = ix2 q j := ⟨y 0, y 1, eq_ix2 y⟩
  show k0_pay1 (F := Ideal) (iblk m c 0 t) (iblk m c 2 t) (iblk m c 3 t) (iblk m c 1 t) (ix2 q j)
    = G m c (((cfg0.win 4).blk t).view.emb (ix2 q j))
  refine (hpay (iblk m c 0 t) (iblk m c 2 t) (iblk m c 3 t) (iblk m c 1 t) q j).trans ?_
  rw [emb4]
  show _ = Cert.Heads.outRow (lanes m c (rowOf t q))
    (fun e : Fin 3 => Pa m c (ix2 (rowOf t q) e)) j
  refine congrArg₂ (fun Y P => Cert.Heads.outRow Y P j) (funext fun cc => ?_) (funext fun e => ?_)
  · show _ = (∑ k : Fin 1024, Xa m c (ix2 (rowOf t q) k) * Wa m c (ix2 k cc)) + Ba m c (ix2 (0 : Fin 1) cc)
    rw [blk3]
    exact congrArg (· + _) (Finset.sum_congr rfl fun k _ => by rw [blk0, blk2])
  · exact blk1 m c t q e

/-- An index of the result is in point t's block iff each coordinate is in the block's range on its axis. -/
theorem mem_blk4 (t : Fin cfg0.N) (i : S131072x62.Idx) :
    i ∈ ((cfg0.win 4).blk t).view.set ↔ ∀ a : Fin 2, win0_4.index t a * S2048x62.size a ≤ (i a).val
      ∧ (i a).val < win0_4.index t a * S2048x62.size a + S2048x62.size a := by
  show i ∈ ((View.whole main_v5).slice (win0_4.rect t)).set ↔ _
  rw [View.set_slice_whole, Rect.mem_set_unit]
  exact Iff.rfl

/-- The 64 blocks cover the result: row r is in the block of point r / 2048. -/
theorem cover4 (i : S131072x62.Idx) : ∃ t : Fin cfg0.N, (cfg0.win 4).flush t = true ∧ i ∈ ((cfg0.win 4).blk t).view.set := by
  have hi0 : (i 0).val < 131072 := (i 0).isLt
  have hi1 : (i 1).val < 62 := (i 1).isLt
  have ht : (i 0).val / 2048 < cfg0.N := lt_of_lt_of_eq (by omega : (i 0).val / 2048 < 64) N_0.symm
  refine ⟨⟨(i 0).val / 2048, ht⟩, flush0_4 _, ?_⟩
  rw [mem_blk4]
  obtain ⟨-, -, -, -, -, -, -, -, e0, e1⟩ := idx_facts ⟨(i 0).val / 2048, ht⟩
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_4.index ⟨(i 0).val / 2048, ht⟩ (1 : Fin 2) * 62 ≤ (i 1).val
      ∧ (i 1).val < win0_4.index ⟨(i 0).val / 2048, ht⟩ (1 : Fin 2) * 62 + 62
    rw [e1]; omega

include hpay in
/-- THE RESULT ARRAY after the run is `G`. -/
theorem final4 (c : Dev nD) : (dats m 0 c).arrAt 4 cfg0.N = G m c :=
  (dats m 0 c).arrAt_eq_of_cover 4 (G m c) (fun t _ => flushed4_eq m hpay c t) cover4

include hpay in
/-- The run of the idealized kernel, read: the result array ends at `G`, the arguments as launched. -/
theorem run_value : θ_run defs (onTc (τ := τ) (main (F := Ideal))) ⟨m, fun _ => 0, ρ⟩ fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(post_main_v5 m r h c).trans (final4 m hpay c), kept_main_arg0 m r h c, kept_main_arg1 m r h c,
      kept_main_arg2 m r h c, kept_main_arg3 m r h c, kept_main_arg4 m r h c, kept_main_arg5 m r h c, kept_main_arg6 m r h c,
      kept_main_arg7 m r h c, kept_main_arg8 m r h c, kept_main_arg9 m r h c, kept_main_arg10 m r h c, kept_main_arg11 m r h c⟩)
    (run_main m ρ)

end Cert.KernelIdeal.Hand

end
-- ==== Proof.Prefix.lean ====
/-
  What the region finds in its third and fourth windows' arrays.

  Before the region @main lays the five heads' weight matrices side by side into one 1024×59 matrix and pads it on
  the right with 69 columns of the padding value to 1024×128; likewise the five bias vectors end to end into a
  vector of 59, padded to 128 and recast as a 1×128 row. So column (lane) off + e of the padded matrix (row), for
  e inside a head of offset off, is that head's column (entry) e: the heads sit at offsets 0, 48, 51, 54, 55 with
  widths 48, 3, 3, 1, 4. The padding columns 59–127 are never read here.
-/
import proofs.«115522_j11982958756329_2_alg».proof.Proof.FrameIdeal
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The third window's array when the region is entered: the five weight matrices side by side, padded to 128 columns. -/
theorem V_main_v2_eq (c : Dev nD) : (V m c main_v2 : S1024x128.Idx → Elt F .f32)
    = pad S1024x128 ![0, 0] ![0, 69] ![0, 0]
        (concatenate S1024x59 1 [⟨S1024x48, m ((c : Thread nD τ).loc main_arg2)⟩, ⟨S1024x3, m ((c : Thread nD τ).loc main_arg4)⟩,
          ⟨S1024x3, m ((c : Thread nD τ).loc main_arg6)⟩, ⟨S1024x1, m ((c : Thread nD τ).loc main_arg8)⟩, ⟨S1024x4, m ((c : Thread nD τ).loc main_arg10)⟩]
          concatenates_S1024x48_S1024x3_S1024x3_S1024x1_S1024x4_S1024x59_d1)
        (sitofp (F := F) .f32 (constantI S_ 32 0#32)) pads_S1024x59_S1024x128_000_0690 h_S_ := by
  dsimp only [V]
  simp only [hostOps0, hostOps0_1, hostOps0_2, hostOps0_3, hostOps0_4, List.flatten_cons, List.flatten_nil, List.append_nil,
    List.cons_append, List.nil_append]
  after_results
  rfl

/-- The fourth window's array when the region is entered: the five bias vectors end to end, padded to 128 lanes, as a row. -/
theorem V_main_v4_eq (c : Dev nD) : (V m c main_v4 : S1x128.Idx → Elt F .f32)
    = shapeCast S1x128 (pad S128 ![0] ![69] ![0]
        (concatenate S59 0 [⟨S48, m ((c : Thread nD τ).loc main_arg3)⟩, ⟨S3, m ((c : Thread nD τ).loc main_arg5)⟩,
          ⟨S3, m ((c : Thread nD τ).loc main_arg7)⟩, ⟨S1, m ((c : Thread nD τ).loc main_arg9)⟩, ⟨S4, m ((c : Thread nD τ).loc main_arg11)⟩]
          concatenates_S48_S3_S3_S1_S4_S59_d0)
        (sitofp (F := F) .f32 (constantI S_ 32 0#32)) pads_S59_S128_0690 h_S_) shapeCasts_S128_S1x128 := by
  dsimp only [V]
  simp only [hostOps0, hostOps0_1, hostOps0_2, hostOps0_3, hostOps0_4, List.flatten_cons, List.flatten_nil, List.append_nil,
    List.cons_append, List.nil_append]
  after_results
  rfl

/-- Columns 0–47 of the padded weight matrix are the shs head's weights. -/
theorem Wall_shs (c : Dev nD) (k : Fin 1024) (e : Fin 48) :
    (V m c main_v2 : S1024x128.Idx → Elt F .f32) (ix2 k ⟨0 + e.val, by omega⟩)
      = (m ((c : Thread nD τ).loc main_arg2) : S1024x48.Idx → Elt F .f32) (ix2 k e) := by
  rw [V_main_v2_eq]
  refine (pad_apply_of_inside _ _ _ _ _ pads_S1024x59_S1024x128_000_0690 h_S_ (ix2 k ⟨0 + e.val, by omega⟩)
    (ix2 k (⟨0 + e.val, by omega⟩ : Fin 59)) (fun a => by
      match a with
      | ⟨0, _⟩ => show k.val = 0 + k.val * (0 + 1); omega
      | ⟨1, _⟩ => show 0 + e.val = 0 + (0 + e.val) * (0 + 1); omega)).trans ?_
  exact concatenate_apply_piece (1 : Fin 2) _ _
    (ix2 k (⟨0 + e.val, by omega⟩ : Fin 59)) 0 (by show 0 < 5; omega) S1024x48 _ rfl rfl 0 rfl (ix2 k e)
    (fun b hb => by
      match b with
      | ⟨0, _⟩ => rfl
      | ⟨1, _⟩ => exact absurd rfl hb)
    rfl

/-- Columns 48–50 of the padded weight matrix are the scaling head's weights. -/
theorem Wall_scaling (c : Dev nD) (k : Fin 1024) (e : Fin 3) :
    (V m c main_v2 : S1024x128.Idx → Elt F .f32) (ix2 k ⟨48 + e.val, by omega⟩)
      = (m ((c : Thread nD τ).loc main_arg4) : S1024x3.Idx → Elt F .f32) (ix2 k e) := by
  rw [V_main_v2_eq]
  refine (pad_apply_of_inside _ _ _ _ _ pads_S1024x59_S1024x128_000_0690 h_S_ (ix2 k ⟨48 + e.val, by omega⟩)
    (ix2 k (⟨48 + e.val, by omega⟩ : Fin 59)) (fun a => by
      match a with
      | ⟨0, _⟩ => show k.val = 0 + k.val * (0 + 1); omega
      | ⟨1, _⟩ => show 48 + e.val = 0 + (48 + e.val) * (0 + 1); omega)).trans ?_
  exact concatenate_apply_piece (1 : Fin 2) _ _
    (ix2 k (⟨48 + e.val, by omega⟩ : Fin 59)) 1 (by show 1 < 5; omega) S1024x3 _ rfl rfl 48 rfl (ix2 k e)
    (fun b hb => by
      match b with
      | ⟨0, _⟩ => rfl
      | ⟨1, _⟩ => exact absurd rfl hb)
    rfl

/-- Columns 51–53 of the padded weight matrix are the xyz head's weights. -/
theorem Wall_xyz (c : Dev nD) (k : Fin 1024) (e : Fin 3) :
    (V m c main_v2 : S1024x128.Idx → Elt F .f32) (ix2 k ⟨51 + e.val, by omega⟩)
      = (m ((c : Thread nD τ).loc main_arg6) : S1024x3.Idx → Elt F .f32) (ix2 k e) := by
  rw [V_main_v2_eq]
  refine (pad_apply_of_inside _ _ _ _ _ pads_S1024x59_S1024x128_000_0690 h_S_ (ix2 k ⟨51 + e.val, by omega⟩)
    (ix2 k (⟨51 + e.val, by omega⟩ : Fin 59)) (fun a => by
      match a with
      | ⟨0, _⟩ => show k.val = 0 + k.val * (0 + 1); omega
      | ⟨1, _⟩ => show 51 + e.val = 0 + (51 + e.val) * (0 + 1); omega)).trans ?_
  exact concatenate_apply_piece (1 : Fin 2) _ _
    (ix2 k (⟨51 + e.val, by omega⟩ : Fin 59)) 2 (by show 2 < 5; omega) S1024x3 _ rfl rfl 51 rfl (ix2 k e)
    (fun b hb => by
      match b with
      | ⟨0, _⟩ => rfl
      | ⟨1, _⟩ => exact absurd rfl hb)
    rfl

/-- Columns 54–54 of the padded weight matrix are the opacity head's weights. -/
theorem Wall_opacity (c : Dev nD) (k : Fin 1024) (e : Fin 1) :
    (V m c main_v2 : S1024x128.Idx → Elt F .f32) (ix2 k ⟨54 + e.val, by omega⟩)
      = (m ((c : Thread nD τ).loc main_arg8) : S1024x1.Idx → Elt F .f32) (ix2 k e) := by
  rw [V_main_v2_eq]
  refine (pad_apply_of_inside _ _ _ _ _ pads_S1024x59_S1024x128_000_0690 h_S_ (ix2 k ⟨54 + e.val, by omega⟩)
    (ix2 k (⟨54 + e.val, by omega⟩ : Fin 59)) (fun a => by
      match a with
      | ⟨0, _⟩ => show k.val = 0 + k.val * (0 + 1); omega
      | ⟨1, _⟩ => show 54 + e.val = 0 + (54 + e.val) * (0 + 1); omega)).trans ?_
  exact concatenate_apply_piece (1 : Fin 2) _ _
    (ix2 k (⟨54 + e.val, by omega⟩ : Fin 59)) 3 (by show 3 < 5; omega) S1024x1 _ rfl rfl 54 rfl (ix2 k e)
    (fun b hb => by
      match b with
      | ⟨0, _⟩ => rfl
      | ⟨1, _⟩ => exact absurd rfl hb)
    rfl

/-- Columns 55–58 of the padded weight matrix are the rotation head's weights. -/
theorem Wall_rotation (c : Dev nD) (k : Fin 1024) (e : Fin 4) :
    (V m c main_v2 : S1024x128.Idx → Elt F .f32) (ix2 k ⟨55 + e.val, by omega⟩)
      = (m ((c : Thread nD τ).loc main_arg10) : S1024x4.Idx → Elt F .f32) (ix2 k e) := by
  rw [V_main_v2_eq]
  refine (pad_apply_of_inside _ _ _ _ _ pads_S1024x59_S1024x128_000_0690 h_S_ (ix2 k ⟨55 + e.val, by omega⟩)
    (ix2 k (⟨55 + e.val, by omega⟩ : Fin 59)) (fun a => by
      match a with
      | ⟨0, _⟩ => show k.val = 0 + k.val * (0 + 1); omega
      | ⟨1, _⟩ => show 55 + e.val = 0 + (55 + e.val) * (0 + 1); omega)).trans ?_
  exact concatenate_apply_piece (1 : Fin 2) _ _
    (ix2 k (⟨55 + e.val, by omega⟩ : Fin 59)) 4 (by show 4 < 5; omega) S1024x4 _ rfl rfl 55 rfl (ix2 k e)
    (fun b hb => by
      match b with
      | ⟨0, _⟩ => rfl
      | ⟨1, _⟩ => exact absurd rfl hb)
    rfl

/-- Lanes 0–47 of the padded bias row are the shs head's biases. -/
theorem ball_shs (c : Dev nD) (e : Fin 48) :
    (V m c main_v4 : S1x128.Idx → Elt F .f32) (ix2 (0 : Fin 1) ⟨0 + e.val, by omega⟩)
      = (m ((c : Thread nD τ).loc main_arg3) : S48.Idx → Elt F .f32) (ix1 e) := by
  rw [V_main_v4_eq]
  refine (shapeCast_a_1a_apply _ shapeCasts_S128_S1x128 (0 : Fin 1) (⟨0 + e.val, by omega⟩ : Fin 128)).trans ?_
  refine (pad_apply_of_inside _ _ _ _ _ pads_S59_S128_0690 h_S_ (ix1 ⟨0 + e.val, by omega⟩)
    (ix1 (⟨0 + e.val, by omega⟩ : Fin 59)) (fun a => by
      match a with
      | ⟨0, _⟩ => show 0 + e.val = 0 + (0 + e.val) * (0 + 1); omega)).trans ?_
  exact concatenate_apply_piece (0 : Fin 1) _ _
    (ix1 (⟨0 + e.val, by omega⟩ : Fin 59)) 0 (by show 0 < 5; omega) S48 _ rfl rfl 0 rfl (ix1 e)
    (fun b hb => by
      match b with
      | ⟨0, _⟩ => exact absurd rfl hb)
    rfl

/-- Lanes 48–50 of the padded bias row are the scaling head's biases. -/
theorem ball_scaling (c : Dev nD) (e : Fin 3) :
    (V m c main_v4 : S1x128.Idx → Elt F .f32) (ix2 (0 : Fin 1) ⟨48 + e.val, by omega⟩)
      = (m ((c : Thread nD τ).loc main_arg5) : S3.Idx → Elt F .f32) (ix1 e) := by
  rw [V_main_v4_eq]
  refine (shapeCast_a_1a_apply _ shapeCasts_S128_S1x128 (0 : Fin 1) (⟨48 + e.val, by omega⟩ : Fin 128)).trans ?_
  refine (pad_apply_of_inside _ _ _ _ _ pads_S59_S128_0690 h_S_ (ix1 ⟨48 + e.val, by omega⟩)
    (ix1 (⟨48 + e.val, by omega⟩ : Fin 59)) (fun a => by
      match a with
      | ⟨0, _⟩ => show 48 + e.val = 0 + (48 + e.val) * (0 + 1); omega)).trans ?_
  exact concatenate_apply_piece (0 : Fin 1) _ _
    (ix1 (⟨48 + e.val, by omega⟩ : Fin 59)) 1 (by show 1 < 5; omega) S3 _ rfl rfl 48 rfl (ix1 e)
    (fun b hb => by
      match b with
      | ⟨0, _⟩ => exact absurd rfl hb)
    rfl

/-- Lanes 51–53 of the padded bias row are the xyz head's biases. -/
theorem ball_xyz (c : Dev nD) (e : Fin 3) :
    (V m c main_v4 : S1x128.Idx → Elt F .f32) (ix2 (0 : Fin 1) ⟨51 + e.val, by omega⟩)
      = (m ((c : Thread nD τ).loc main_arg7) : S3.Idx → Elt F .f32) (ix1 e) := by
  rw [V_main_v4_eq]
  refine (shapeCast_a_1a_apply _ shapeCasts_S128_S1x128 (0 : Fin 1) (⟨51 + e.val, by omega⟩ : Fin 128)).trans ?_
  refine (pad_apply_of_inside _ _ _ _ _ pads_S59_S128_0690 h_S_ (ix1 ⟨51 + e.val, by omega⟩)
    (ix1 (⟨51 + e.val, by omega⟩ : Fin 59)) (fun a => by
      match a with
      | ⟨0, _⟩ => show 51 + e.val = 0 + (51 + e.val) * (0 + 1); omega)).trans ?_
  exact concatenate_apply_piece (0 : Fin 1) _ _
    (ix1 (⟨51 + e.val, by omega⟩ : Fin 59)) 2 (by show 2 < 5; omega) S3 _ rfl rfl 51 rfl (ix1 e)
    (fun b hb => by
      match b with
      | ⟨0, _⟩ => exact absurd rfl hb)
    rfl

/-- Lanes 54–54 of the padded bias row are the opacity head's biases. -/
theorem ball_opacity (c : Dev nD) (e : Fin 1) :
    (V m c main_v4 : S1x128.Idx → Elt F .f32) (ix2 (0 : Fin 1) ⟨54 + e.val, by omega⟩)
      = (m ((c : Thread nD τ).loc main_arg9) : S1.Idx → Elt F .f32) (ix1 e) := by
  rw [V_main_v4_eq]
  refine (shapeCast_a_1a_apply _ shapeCasts_S128_S1x128 (0 : Fin 1) (⟨54 + e.val, by omega⟩ : Fin 128)).trans ?_
  refine (pad_apply_of_inside _ _ _ _ _ pads_S59_S128_0690 h_S_ (ix1 ⟨54 + e.val, by omega⟩)
    (ix1 (⟨54 + e.val, by omega⟩ : Fin 59)) (fun a => by
      match a with
      | ⟨0, _⟩ => show 54 + e.val = 0 + (54 + e.val) * (0 + 1); omega)).trans ?_
  exact concatenate_apply_piece (0 : Fin 1) _ _
    (ix1 (⟨54 + e.val, by omega⟩ : Fin 59)) 3 (by show 3 < 5; omega) S1 _ rfl rfl 54 rfl (ix1 e)
    (fun b hb => by
      match b with
      | ⟨0, _⟩ => exact absurd rfl hb)
    rfl

/-- Lanes 55–58 of the padded bias row are the rotation head's biases. -/
theorem ball_rotation (c : Dev nD) (e : Fin 4) :
    (V m c main_v4 : S1x128.Idx → Elt F .f32) (ix2 (0 : Fin 1) ⟨55 + e.val, by omega⟩)
      = (m ((c : Thread nD τ).loc main_arg11) : S4.Idx → Elt F .f32) (ix1 e) := by
  rw [V_main_v4_eq]
  refine (shapeCast_a_1a_apply _ shapeCasts_S128_S1x128 (0 : Fin 1) (⟨55 + e.val, by omega⟩ : Fin 128)).trans ?_
  refine (pad_apply_of_inside _ _ _ _ _ pads_S59_S128_0690 h_S_ (ix1 ⟨55 + e.val, by omega⟩)
    (ix1 (⟨55 + e.val, by omega⟩ : Fin 59)) (fun a => by
      match a with
      | ⟨0, _⟩ => show 55 + e.val = 0 + (55 + e.val) * (0 + 1); omega)).trans ?_
  exact concatenate_apply_piece (0 : Fin 1) _ _
    (ix1 (⟨55 + e.val, by omega⟩ : Fin 59)) 4 (by show 4 < 5; omega) S4 _ rfl rfl 55 rfl (ix1 e)
    (fun b hb => by
      match b with
      | ⟨0, _⟩ => exact absurd rfl hb)
    rfl

end Cert.KernelIdeal.Hand

end
-- ==== Proof.RefRow.lean ====
/-
  The reference program read one row and one column at a time.

  The reference computes five linear heads of the features (a matrix product plus a bias each), passes them through
  their activations, and joins the six results along the columns. Here each stage is read at a row `r` and a column:
  first the five pre-activations as dot products plus bias, then each of the six pieces as the activation of its
  pre-activation, then the joined array as the piece that holds the column. The last theorem says the whole output at
  `(r, j)` is the row function `Cert.Heads.outRow` of the row's pre-activations and anchor.
-/
import proofs.«115522_j11982958756329_2_alg».proof.Proof.Gen.ReferenceIdeal.Read
import proofs.«115522_j11982958756329_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefRow

open Cert.ReferenceIdeal Cert.ReferenceIdeal.Read Idealize.ShloMosaic Idealize.ShloMosaic.ValueIdx

/-! ## The five linear heads at a row and a column

Each head is a product of the row of `x` with a weight matrix plus a bias broadcast over the rows; read at row `r`
and column `e` it is the dot product of the row with column `e` of the weights, plus the bias at `e`. -/

/-- The spherical-harmonics head's pre-activation at row `r`, column `e`. -/
theorem lin_shs (x0 : (⟨S131072x1024, .f32⟩ : BufTy).Contents (Elt Ideal)) (x2 : (⟨S1024x48, .f32⟩ : BufTy).Contents (Elt Ideal)) (x3 : (⟨S48, .f32⟩ : BufTy).Contents (Elt Ideal))
    (r : Fin 131072) (e : Fin 48) :
    val_main_v3 (F := Ideal) x0 x2 x3 (ix2 r e)
      = (∑ k : Fin 1024, x0 (ix2 r k) * x2 (ix2 k e)) + x3 (ix1 e) := by
  rw [val_main_v3_apply, val_main_v0_apply, val_main_v2_apply, val_main_v1_apply, Ideal.addf_def]
  refine congrArg₂ (· + ·) (Finset.sum_congr rfl fun k _ => ?_) (congrArg x3 ?_)
  · refine congrArg₂ (· * ·) (congrArg x0 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The scaling head's pre-activation at row `r`, column `e`. -/
theorem lin_scaling (x0 : (⟨S131072x1024, .f32⟩ : BufTy).Contents (Elt Ideal)) (x4 : (⟨S1024x3, .f32⟩ : BufTy).Contents (Elt Ideal)) (x5 : (⟨S3, .f32⟩ : BufTy).Contents (Elt Ideal))
    (r : Fin 131072) (e : Fin 3) :
    val_main_v7 (F := Ideal) x0 x4 x5 (ix2 r e)
      = (∑ k : Fin 1024, x0 (ix2 r k) * x4 (ix2 k e)) + x5 (ix1 e) := by
  rw [val_main_v7_apply, val_main_v4_apply, val_main_v6_apply, val_main_v5_apply, Ideal.addf_def]
  refine congrArg₂ (· + ·) (Finset.sum_congr rfl fun k _ => ?_) (congrArg x5 ?_)
  · refine congrArg₂ (· * ·) (congrArg x0 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The position-offset head's pre-activation at row `r`, column `e`. -/
theorem lin_xyz (x0 : (⟨S131072x1024, .f32⟩ : BufTy).Contents (Elt Ideal)) (x6 : (⟨S1024x3, .f32⟩ : BufTy).Contents (Elt Ideal)) (x7 : (⟨S3, .f32⟩ : BufTy).Contents (Elt Ideal))
    (r : Fin 131072) (e : Fin 3) :
    val_main_v13 (F := Ideal) x0 x6 x7 (ix2 r e)
      = (∑ k : Fin 1024, x0 (ix2 r k) * x6 (ix2 k e)) + x7 (ix1 e) := by
  rw [val_main_v13_apply, val_main_v10_apply, val_main_v12_apply, val_main_v11_apply, Ideal.addf_def]
  refine congrArg₂ (· + ·) (Finset.sum_congr rfl fun k _ => ?_) (congrArg x7 ?_)
  · refine congrArg₂ (· * ·) (congrArg x0 ?_) (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The opacity head's pre-activation at row `r` (its one column; the bias is broadcast from its one entry). -/
theorem lin_opacity (x0 : (⟨S131072x1024, .f32⟩ : BufTy).Contents (Elt Ideal)) (x8 : (⟨S1024x1, .f32⟩ : BufTy).Contents (Elt Ideal)) (x9 : (⟨S1, .f32⟩ : BufTy).Contents (Elt Ideal))
    (r : Fin 131072) (e : Fin 1) :
    val_main_v28 (F := Ideal) x0 x8 x9 (ix2 r e)
      = (∑ k : Fin 1024, x0 (ix2 r k) * x8 (ix2 k e)) + x9 (ix1 e) := by
  rw [val_main_v28_apply, val_main_v25_apply, val_main_v27_apply, val_main_v26_apply, Ideal.addf_def]
  refine congrArg₂ (· + ·) (Finset.sum_congr rfl fun k _ => ?_) (congrArg x9 ?_)
  · refine congrArg₂ (· * ·) (congrArg x0 ?_) (congrArg x8 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by
      match a with
      | ⟨0, _⟩ => show (0 : Nat) = e.val; omega)

/-- The rotation head's pre-activation at row `r`, column `e`. -/
theorem lin_rotation (x0 : (⟨S131072x1024, .f32⟩ : BufTy).Contents (Elt Ideal)) (x10 : (⟨S1024x4, .f32⟩ : BufTy).Contents (Elt Ideal)) (x11 : (⟨S4, .f32⟩ : BufTy).Contents (Elt Ideal))
    (r : Fin 131072) (e : Fin 4) :
    val_main_v38 (F := Ideal) x0 x10 x11 (ix2 r e)
      = (∑ k : Fin 1024, x0 (ix2 r k) * x10 (ix2 k e)) + x11 (ix1 e) := by
  rw [val_main_v38_apply, val_main_v35_apply, val_main_v37_apply, val_main_v36_apply, Ideal.addf_def]
  refine congrArg₂ (· + ·) (Finset.sum_congr rfl fun k _ => ?_) (congrArg x11 ?_)
  · refine congrArg₂ (· * ·) (congrArg x0 ?_) (congrArg x10 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The f32 word of one is the extended real one: mantissa `2^23` over `2^23`. -/
theorem one_word : Ideal.ofBits .f32 0x3F800000#32 = 1 := by
  simp [Ideal.ofBits, Ideal.ieee, -EReal.coe_mul] <;> norm_num

/-! ## The six pieces of the output at a row and a column -/

/-- The scaling piece: the exponential of the pre-activation clipped to `[0, hi]` (the clip's two bounds are the
    scalar constants broadcast over the array). -/
theorem piece_scaling (x0 : (⟨S131072x1024, .f32⟩ : BufTy).Contents (Elt Ideal)) (x4 : (⟨S1024x3, .f32⟩ : BufTy).Contents (Elt Ideal)) (x5 : (⟨S3, .f32⟩ : BufTy).Contents (Elt Ideal))
    (r : Fin 131072) (e : Fin 3) :
    val_main_v9 (F := Ideal) x0 x4 x5 (ix2 r e)
      = Cert.Heads.clipExp ((∑ k : Fin 1024, x0 (ix2 r k) * x4 (ix2 k e)) + x5 (ix1 e)) := by
  rw [val_main_v9_apply, val_main_call0_v4_apply, val_main_call0_v3_apply, val_main_cst_0_apply,
    val_main_call0_v2_apply, val_main_call0_v1_apply, val_main_call0_v0_apply, val_main_cst_apply,
    val_main_v8_apply, lin_scaling]
  rfl

/-- The offset piece: the reference spells the logistic function out as `1 / (1 + e^(-y))` with the f32 word of one;
    that word is `1`, so this is the logistic function, then recentred by a half and scaled. -/
theorem piece_offset (x0 : (⟨S131072x1024, .f32⟩ : BufTy).Contents (Elt Ideal)) (x6 : (⟨S1024x3, .f32⟩ : BufTy).Contents (Elt Ideal)) (x7 : (⟨S3, .f32⟩ : BufTy).Contents (Elt Ideal))
    (r : Fin 131072) (e : Fin 3) :
    val_main_v23 (F := Ideal) x0 x6 x7 (ix2 r e)
      = Cert.Heads.offs ((∑ k : Fin 1024, x0 (ix2 r k) * x6 (ix2 k e)) + x7 (ix1 e)) := by
  rw [val_main_v23_apply, val_main_v22_apply, val_main_cst_4_apply, val_main_v21_apply, val_main_v20_apply,
    val_main_cst_3_apply, val_main_v19_apply, val_main_v18_apply, val_main_cst_2_apply, val_main_v17_apply,
    val_main_v16_apply, val_main_cst_1_apply, val_main_v15_apply, val_main_v14_apply, lin_xyz]
  simp only [Ideal.ofBits_def, Ideal.mulf_def, Ideal.subf_def, Ideal.hostDivf_def, Ideal.addf_def,
    Ideal.hostUnary_exp_def, Ideal.hostNegf_def, Ideal.negf_def, one_word]
  rfl

/-- The position piece: the anchor plus the same offset. -/
theorem piece_xyz (x0 : (⟨S131072x1024, .f32⟩ : BufTy).Contents (Elt Ideal)) (x1 : (⟨S131072x3, .f32⟩ : BufTy).Contents (Elt Ideal)) (x6 : (⟨S1024x3, .f32⟩ : BufTy).Contents (Elt Ideal)) (x7 : (⟨S3, .f32⟩ : BufTy).Contents (Elt Ideal))
    (r : Fin 131072) (e : Fin 3) :
    val_main_v24 (F := Ideal) x0 x1 x6 x7 (ix2 r e)
      = x1 (ix2 r e) + Cert.Heads.offs ((∑ k : Fin 1024, x0 (ix2 r k) * x6 (ix2 k e)) + x7 (ix1 e)) := by
  rw [val_main_v24_apply, piece_offset]
  rfl

/-- The opacity piece: the logistic function of the one pre-activation, spelt out with the f32 word of one. -/
theorem piece_opacity (x0 : (⟨S131072x1024, .f32⟩ : BufTy).Contents (Elt Ideal)) (x8 : (⟨S1024x1, .f32⟩ : BufTy).Contents (Elt Ideal)) (x9 : (⟨S1, .f32⟩ : BufTy).Contents (Elt Ideal))
    (r : Fin 131072) :
    val_main_v34 (F := Ideal) x0 x8 x9 (ix2 r (0 : Fin 1))
      = Ideal.logistic ((∑ k : Fin 1024, x0 (ix2 r k) * x8 (ix2 k (0 : Fin 1))) + x9 (ix1 (0 : Fin 1))) := by
  rw [val_main_v34_apply, val_main_v33_apply, val_main_cst_6_apply, val_main_v32_apply, val_main_v31_apply,
    val_main_cst_5_apply, val_main_v30_apply, val_main_v29_apply, lin_opacity]
  simp only [Ideal.ofBits_def, Ideal.hostDivf_def, Ideal.addf_def,
    Ideal.hostUnary_exp_def, Ideal.hostNegf_def, Ideal.negf_def, one_word]
  rfl

/-- The rotation piece: the quadruple divided by its Euclidean norm floored. The sum of squares starts from the f32
    word of zero, which is `0`; the norm is computed once per row and broadcast over the four columns. -/
theorem piece_rotation (x0 : (⟨S131072x1024, .f32⟩ : BufTy).Contents (Elt Ideal)) (x10 : (⟨S1024x4, .f32⟩ : BufTy).Contents (Elt Ideal)) (x11 : (⟨S4, .f32⟩ : BufTy).Contents (Elt Ideal))
    (r : Fin 131072) (e : Fin 4) :
    val_main_v43 (F := Ideal) x0 x10 x11 (ix2 r e)
      = Cert.Heads.unit4 (fun d : Fin 4 => (∑ k : Fin 1024, x0 (ix2 r k) * x10 (ix2 k d)) + x11 (ix1 d)) e := by
  have hs : ∀ k : Fin 4, val_main_call1_v0 (F := Ideal) x0 x10 x11
        (idx_main_call1_v1 (idx_main_call1_v2 (idx_main_v42 (ix2 r e))) k)
      = ((∑ q : Fin 1024, x0 (ix2 r q) * x10 (ix2 q k)) + x11 (ix1 k))
          * ((∑ q : Fin 1024, x0 (ix2 r q) * x10 (ix2 q k)) + x11 (ix1 k)) := fun k => by
    have hi : idx_main_call1_v1 (idx_main_call1_v2 (idx_main_v42 (ix2 r e))) k = ix2 r k :=
      funext fun a => Fin.ext (by match a with | ⟨0, _⟩ => rfl | ⟨1, _⟩ => rfl)
    rw [hi, val_main_call1_v0_apply, lin_rotation]
    rfl
  rw [val_main_v43_apply, val_main_v42_apply, val_main_v41_apply, val_main_v40_apply, val_main_cst_7_apply,
    val_main_v39_apply, val_main_call1_v2_apply, val_main_call1_v1_apply, val_main_call1_cst_apply,
    Finset.sum_congr rfl (fun k _ => hs k), lin_rotation]
  simp only [Ideal.ofBits_def, Ideal.ofBits_zero_f32, zero_add]
  rfl

/-! ## The concatenation at a row and a column

The output joins the six pieces along the columns: piece `k` occupies the columns from the sum of the widths before
it; the row coordinate is untouched. -/

/-- Columns `0–47` are the spherical-harmonics piece. -/
theorem cat_shs (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (e : Fin 48) :
    val_main_v44 (F := Ideal) x0 x1 x2 x3 x4 x5 x6 x7 x8 x9 x10 x11 (ix2 r (⟨e.val, by omega⟩ : Fin 62))
      = val_main_v3 (F := Ideal) x0 x2 x3 (ix2 r e) := by
  unfold val_main_v44
  refine concatenate_apply_piece (1 : Fin 2) _ _ (ix2 r (⟨e.val, by omega⟩ : Fin 62)) 0 ?hk
    S131072x48 _ ?hxk rfl 0 ?hpre (ix2 r e) ?hi ?ha
  case hk => exact (by omega : (0 : Nat) < 6)
  case hxk => rfl
  case hpre => rfl
  case hi =>
    intro b hb
    match b with
    | ⟨0, _⟩ => rfl
    | ⟨1, _⟩ => exact absurd (Fin.ext rfl) hb
  case ha => exact Nat.zero_add _

/-- Columns `48–50` are the scaling piece. -/
theorem cat_scaling (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (e : Fin 3) :
    val_main_v44 (F := Ideal) x0 x1 x2 x3 x4 x5 x6 x7 x8 x9 x10 x11 (ix2 r (⟨48 + e.val, by omega⟩ : Fin 62))
      = val_main_v9 (F := Ideal) x0 x4 x5 (ix2 r e) := by
  unfold val_main_v44
  refine concatenate_apply_piece (1 : Fin 2) _ _ (ix2 r (⟨48 + e.val, by omega⟩ : Fin 62)) 1 ?hk
    S131072x3 _ ?hxk rfl 48 ?hpre (ix2 r e) ?hi ?ha
  case hk => exact (by omega : (1 : Nat) < 6)
  case hxk => rfl
  case hpre => rfl
  case hi =>
    intro b hb
    match b with
    | ⟨0, _⟩ => rfl
    | ⟨1, _⟩ => exact absurd (Fin.ext rfl) hb
  case ha => rfl

/-- Columns `51–53` are the offset piece. -/
theorem cat_offset (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (e : Fin 3) :
    val_main_v44 (F := Ideal) x0 x1 x2 x3 x4 x5 x6 x7 x8 x9 x10 x11 (ix2 r (⟨51 + e.val, by omega⟩ : Fin 62))
      = val_main_v23 (F := Ideal) x0 x6 x7 (ix2 r e) := by
  unfold val_main_v44
  refine concatenate_apply_piece (1 : Fin 2) _ _ (ix2 r (⟨51 + e.val, by omega⟩ : Fin 62)) 2 ?hk
    S131072x3 _ ?hxk rfl 51 ?hpre (ix2 r e) ?hi ?ha
  case hk => exact (by omega : (2 : Nat) < 6)
  case hxk => rfl
  case hpre => rfl
  case hi =>
    intro b hb
    match b with
    | ⟨0, _⟩ => rfl
    | ⟨1, _⟩ => exact absurd (Fin.ext rfl) hb
  case ha => rfl

/-- Columns `54–56` are the position piece. -/
theorem cat_xyz (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (e : Fin 3) :
    val_main_v44 (F := Ideal) x0 x1 x2 x3 x4 x5 x6 x7 x8 x9 x10 x11 (ix2 r (⟨54 + e.val, by omega⟩ : Fin 62))
      = val_main_v24 (F := Ideal) x0 x1 x6 x7 (ix2 r e) := by
  unfold val_main_v44
  refine concatenate_apply_piece (1 : Fin 2) _ _ (ix2 r (⟨54 + e.val, by omega⟩ : Fin 62)) 3 ?hk
    S131072x3 _ ?hxk rfl 54 ?hpre (ix2 r e) ?hi ?ha
  case hk => exact (by omega : (3 : Nat) < 6)
  case hxk => rfl
  case hpre => rfl
  case hi =>
    intro b hb
    match b with
    | ⟨0, _⟩ => rfl
    | ⟨1, _⟩ => exact absurd (Fin.ext rfl) hb
  case ha => rfl

/-- Column `57` is the opacity piece. -/
theorem cat_opacity (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) :
    val_main_v44 (F := Ideal) x0 x1 x2 x3 x4 x5 x6 x7 x8 x9 x10 x11 (ix2 r (⟨57, by omega⟩ : Fin 62))
      = val_main_v34 (F := Ideal) x0 x8 x9 (ix2 r (0 : Fin 1)) := by
  unfold val_main_v44
  refine concatenate_apply_piece (1 : Fin 2) _ _ (ix2 r (⟨57, by omega⟩ : Fin 62)) 4 ?hk
    S131072x1 _ ?hxk rfl 57 ?hpre (ix2 r (0 : Fin 1)) ?hi ?ha
  case hk => exact (by omega : (4 : Nat) < 6)
  case hxk => rfl
  case hpre => rfl
  case hi =>
    intro b hb
    match b with
    | ⟨0, _⟩ => rfl
    | ⟨1, _⟩ => exact absurd (Fin.ext rfl) hb
  case ha => rfl

/-- Columns `58–61` are the rotation piece. -/
theorem cat_rotation (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (e : Fin 4) :
    val_main_v44 (F := Ideal) x0 x1 x2 x3 x4 x5 x6 x7 x8 x9 x10 x11 (ix2 r (⟨58 + e.val, by omega⟩ : Fin 62))
      = val_main_v43 (F := Ideal) x0 x10 x11 (ix2 r e) := by
  unfold val_main_v44
  refine concatenate_apply_piece (1 : Fin 2) _ _ (ix2 r (⟨58 + e.val, by omega⟩ : Fin 62)) 5 ?hk
    S131072x4 _ ?hxk rfl 58 ?hpre (ix2 r e) ?hi ?ha
  case hk => exact (by omega : (5 : Nat) < 6)
  case hxk => rfl
  case hpre => rfl
  case hi =>
    intro b hb
    match b with
    | ⟨0, _⟩ => rfl
    | ⟨1, _⟩ => exact absurd (Fin.ext rfl) hb
  case ha => rfl

/-! ## The reference at a row and a column is the row function -/

/-- The reference's output at row `r`, column `j`, is the row function of the row's pre-activations `Y` (given, lane
    by lane, as the five linear heads at row `r`) and of the row's anchor. -/
theorem ref_row (x0 : (⟨S131072x1024, .f32⟩ : BufTy).Contents (Elt Ideal)) (x1 : (⟨S131072x3, .f32⟩ : BufTy).Contents (Elt Ideal)) (x2 : (⟨S1024x48, .f32⟩ : BufTy).Contents (Elt Ideal)) (x3 : (⟨S48, .f32⟩ : BufTy).Contents (Elt Ideal)) (x4 : (⟨S1024x3, .f32⟩ : BufTy).Contents (Elt Ideal)) (x5 : (⟨S3, .f32⟩ : BufTy).Contents (Elt Ideal)) (x6 : (⟨S1024x3, .f32⟩ : BufTy).Contents (Elt Ideal)) (x7 : (⟨S3, .f32⟩ : BufTy).Contents (Elt Ideal)) (x8 : (⟨S1024x1, .f32⟩ : BufTy).Contents (Elt Ideal)) (x9 : (⟨S1, .f32⟩ : BufTy).Contents (Elt Ideal)) (x10 : (⟨S1024x4, .f32⟩ : BufTy).Contents (Elt Ideal)) (x11 : (⟨S4, .f32⟩ : BufTy).Contents (Elt Ideal))
    (r : Fin 131072) (j : Fin 62) (Y : Fin 128 → EReal)
    (h0 : ∀ e : Fin 48, Y ⟨e.val, by omega⟩ = (∑ k : Fin 1024, x0 (ix2 r k) * x2 (ix2 k e)) + x3 (ix1 e))
    (h1 : ∀ e : Fin 3, Y ⟨48 + e.val, by omega⟩ = (∑ k : Fin 1024, x0 (ix2 r k) * x4 (ix2 k e)) + x5 (ix1 e))
    (h2 : ∀ e : Fin 3, Y ⟨51 + e.val, by omega⟩ = (∑ k : Fin 1024, x0 (ix2 r k) * x6 (ix2 k e)) + x7 (ix1 e))
    (h3 : Y ⟨54, by omega⟩ = (∑ k : Fin 1024, x0 (ix2 r k) * x8 (ix2 k (0 : Fin 1))) + x9 (ix1 (0 : Fin 1)))
    (h4 : ∀ e : Fin 4, Y ⟨55 + e.val, by omega⟩ = (∑ k : Fin 1024, x0 (ix2 r k) * x10 (ix2 k e)) + x11 (ix1 e)) :
    val_main_v44 (F := Ideal) x0 x1 x2 x3 x4 x5 x6 x7 x8 x9 x10 x11 (ix2 r j)
      = Cert.Heads.outRow Y (fun e : Fin 3 => x1 (ix2 r e)) j := by
  rcases Cert.Heads.col_cases j with ⟨e, rfl⟩ | ⟨e, rfl⟩ | ⟨e, rfl⟩ | ⟨e, rfl⟩ | rfl | ⟨e, rfl⟩
  · rw [Cert.Heads.outRow_shs, h0 e]
    exact (cat_shs x0 x1 x2 x3 x4 x5 x6 x7 x8 x9 x10 x11 r e).trans (lin_shs x0 x2 x3 r e)
  · rw [Cert.Heads.outRow_scaling, h1 e]
    exact (cat_scaling x0 x1 x2 x3 x4 x5 x6 x7 x8 x9 x10 x11 r e).trans (piece_scaling x0 x4 x5 r e)
  · rw [Cert.Heads.outRow_offset, h2 e]
    exact (cat_offset x0 x1 x2 x3 x4 x5 x6 x7 x8 x9 x10 x11 r e).trans (piece_offset x0 x6 x7 r e)
  · rw [Cert.Heads.outRow_xyz, h2 e]
    exact (cat_xyz x0 x1 x2 x3 x4 x5 x6 x7 x8 x9 x10 x11 r e).trans (piece_xyz x0 x1 x6 x7 r e)
  · rw [Cert.Heads.outRow_opacity, h3]
    exact (cat_opacity x0 x1 x2 x3 x4 x5 x6 x7 x8 x9 x10 x11 r).trans (piece_opacity x0 x8 x9 r)
  · have hY : (fun d : Fin 4 => Y ⟨55 + d.val, by omega⟩)
        = fun d : Fin 4 => (∑ k : Fin 1024, x0 (ix2 r k) * x10 (ix2 k d)) + x11 (ix1 d) := funext h4
    rw [Cert.Heads.outRow_rotation, hY]
    exact (cat_rotation x0 x1 x2 x3 x4 x5 x6 x7 x8 x9 x10 x11 r e).trans (piece_rotation x0 x10 x11 r e)

end Cert.ReferenceIdeal.RefRow

end
-- ==== Proof.Bridge.lean ====
/-
  The idealized kernel's result array is the reference's result term of the launch arrays.

  Row r's lanes of pre-activations, x·W_all + b_all, are on each head's lanes that head's own x·W + b: the padded
  weight matrix (bias row) restricted to a head's lanes is that head's weights (biases), and a sum whose terms agree
  one by one is the same sum — nothing about finiteness is used. The reference read at (r, j) is the row function
  of exactly those pre-activations and row r of pts, and so is the kernel's result.
-/
import proofs.«115522_j11982958756329_2_alg».proof.Proof.KernelValue
import proofs.«115522_j11982958756329_2_alg».proof.Proof.Prefix
import proofs.«115522_j11982958756329_2_alg».proof.Proof.RefRow

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The twelve argument arrays as launched, as functions into the extended reals. -/
abbrev a0 (c : Dev nD) : S131072x1024.Idx → EReal := m ((c : Thread nD τ).loc main_arg0)
abbrev a1 (c : Dev nD) : S131072x3.Idx → EReal := m ((c : Thread nD τ).loc main_arg1)
abbrev a2 (c : Dev nD) : S1024x48.Idx → EReal := m ((c : Thread nD τ).loc main_arg2)
abbrev a3 (c : Dev nD) : S48.Idx → EReal := m ((c : Thread nD τ).loc main_arg3)
abbrev a4 (c : Dev nD) : S1024x3.Idx → EReal := m ((c : Thread nD τ).loc main_arg4)
abbrev a5 (c : Dev nD) : S3.Idx → EReal := m ((c : Thread nD τ).loc main_arg5)
abbrev a6 (c : Dev nD) : S1024x3.Idx → EReal := m ((c : Thread nD τ).loc main_arg6)
abbrev a7 (c : Dev nD) : S3.Idx → EReal := m ((c : Thread nD τ).loc main_arg7)
abbrev a8 (c : Dev nD) : S1024x1.Idx → EReal := m ((c : Thread nD τ).loc main_arg8)
abbrev a9 (c : Dev nD) : S1.Idx → EReal := m ((c : Thread nD τ).loc main_arg9)
abbrev a10 (c : Dev nD) : S1024x4.Idx → EReal := m ((c : Thread nD τ).loc main_arg10)
abbrev a11 (c : Dev nD) : S4.Idx → EReal := m ((c : Thread nD τ).loc main_arg11)

/-- Lanes 0–47 of row r are the shs head's pre-activations. -/
theorem lanes_shs (c : Dev nD) (r : Fin 131072) (e : Fin 48) :
    lanes m c r ⟨e.val, by omega⟩ = (∑ k : Fin 1024, a0 m c (ix2 r k) * a2 m c (ix2 k e)) + a3 m c (ix1 e) := by
  have hl : (⟨e.val, by omega⟩ : Fin 128) = ⟨0 + e.val, by omega⟩ := Fin.ext (Nat.zero_add _).symm
  rw [hl]
  show (∑ k : Fin 1024, Xa m c (ix2 r k) * Wa m c (ix2 k ⟨0 + e.val, by omega⟩)) + Ba m c (ix2 (0 : Fin 1) ⟨0 + e.val, by omega⟩) = _
  exact congrArg₂ (· + ·) (Finset.sum_congr rfl fun k _ =>
    congrArg₂ (· * ·) (congrFun (V_main_arg0 m c) (ix2 r k)) (Wall_shs m c k e)) (ball_shs m c e)

/-- Lanes 48–50 of row r are the scaling head's pre-activations. -/
theorem lanes_scaling (c : Dev nD) (r : Fin 131072) (e : Fin 3) :
    lanes m c r ⟨48 + e.val, by omega⟩ = (∑ k : Fin 1024, a0 m c (ix2 r k) * a4 m c (ix2 k e)) + a5 m c (ix1 e) := by
  show (∑ k : Fin 1024, Xa m c (ix2 r k) * Wa m c (ix2 k ⟨48 + e.val, by omega⟩)) + Ba m c (ix2 (0 : Fin 1) ⟨48 + e.val, by omega⟩) = _
  exact congrArg₂ (· + ·) (Finset.sum_congr rfl fun k _ =>
    congrArg₂ (· * ·) (congrFun (V_main_arg0 m c) (ix2 r k)) (Wall_scaling m c k e)) (ball_scaling m c e)

/-- Lanes 51–53 of row r are the xyz head's pre-activations. -/
theorem lanes_xyz (c : Dev nD) (r : Fin 131072) (e : Fin 3) :
    lanes m c r ⟨51 + e.val, by omega⟩ = (∑ k : Fin 1024, a0 m c (ix2 r k) * a6 m c (ix2 k e)) + a7 m c (ix1 e) := by
  show (∑ k : Fin 1024, Xa m c (ix2 r k) * Wa m c (ix2 k ⟨51 + e.val, by omega⟩)) + Ba m c (ix2 (0 : Fin 1) ⟨51 + e.val, by omega⟩) = _
  exact congrArg₂ (· + ·) (Finset.sum_congr rfl fun k _ =>
    congrArg₂ (· * ·) (congrFun (V_main_arg0 m c) (ix2 r k)) (Wall_xyz m c k e)) (ball_xyz m c e)

/-- Lanes 55–58 of row r are the rotation head's pre-activations. -/
theorem lanes_rotation (c : Dev nD) (r : Fin 131072) (e : Fin 4) :
    lanes m c r ⟨55 + e.val, by omega⟩ = (∑ k : Fin 1024, a0 m c (ix2 r k) * a10 m c (ix2 k e)) + a11 m c (ix1 e) := by
  show (∑ k : Fin 1024, Xa m c (ix2 r k) * Wa m c (ix2 k ⟨55 + e.val, by omega⟩)) + Ba m c (ix2 (0 : Fin 1) ⟨55 + e.val, by omega⟩) = _
  exact congrArg₂ (· + ·) (Finset.sum_congr rfl fun k _ =>
    congrArg₂ (· * ·) (congrFun (V_main_arg0 m c) (ix2 r k)) (Wall_rotation m c k e)) (ball_rotation m c e)

/-- Lane 54 of row r is the opacity head's pre-activation. -/
theorem lanes_opacity (c : Dev nD) (r : Fin 131072) :
    lanes m c r ⟨54, by omega⟩ = (∑ k : Fin 1024, a0 m c (ix2 r k) * a8 m c (ix2 k (0 : Fin 1))) + a9 m c (ix1 (0 : Fin 1)) := by
  show (∑ k : Fin 1024, Xa m c (ix2 r k) * Wa m c (ix2 k ⟨54 + (0 : Fin 1).val, by omega⟩))
    + Ba m c (ix2 (0 : Fin 1) ⟨54 + (0 : Fin 1).val, by omega⟩) = _
  exact congrArg₂ (· + ·) (Finset.sum_congr rfl fun k _ =>
    congrArg₂ (· * ·) (congrFun (V_main_arg0 m c) (ix2 r k)) (Wall_opacity m c k (0 : Fin 1))) (ball_opacity m c (0 : Fin 1))

/-- THE BRIDGE: the kernel's result array is the reference's result term of the same argument arrays. -/
theorem G_eq_ref (c : Dev nD) :
    G m c = Cert.ReferenceIdeal.Read.val_main_v44 (F := Ideal) (a0 m c) (a1 m c) (a2 m c) (a3 m c) (a4 m c) (a5 m c) (a6 m c)
      (a7 m c) (a8 m c) (a9 m c) (a10 m c) (a11 m c) := by
  funext i
  obtain ⟨r, j, rfl⟩ : ∃ (r : Fin 131072) (j : Fin 62), i = ix2 r j := ⟨i 0, i 1, eq_ix2 i⟩
  refine ((Cert.ReferenceIdeal.RefRow.ref_row (a0 m c) (a1 m c) (a2 m c) (a3 m c) (a4 m c) (a5 m c) (a6 m c) (a7 m c) (a8 m c)
    (a9 m c) (a10 m c) (a11 m c) r j (lanes m c r) (lanes_shs m c r) (lanes_scaling m c r) (lanes_xyz m c r) (lanes_opacity m c r)
    (lanes_rotation m c r)).trans ?_).symm
  show _ = Cert.Heads.outRow (lanes m c r) (fun e : Fin 3 => Pa m c (ix2 r e)) j
  exact congrArg (fun P => Cert.Heads.outRow (lanes m c r) P j) (funext fun e => (congrFun (V_main_arg1 m c) _).symm)

end Cert.KernelIdeal.Hand

end
-- ==== Proof.lean ====
/-
  The certificate of the Gaussian projection head.

  The kernel multiplies each block of 2048 rows of x by ONE 1024×128 weight matrix — the five heads' matrices
  (spherical harmonics, scaling, position offset, opacity, rotation) side by side, padded with zeros — adds the
  padded bias row, cuts the 59 pre-activations into the five heads, applies each head's activation, and joins the
  six results (the offset head feeds two of them) into 62 columns. The reference multiplies x by each head's own
  matrix and does the same. On the extended reals column j of x·W_all is the sum over k of x[r,k]·W_all[k,j], and
  W_all[k,j] is the entry of the head that owns column j, so the two pre-activations are the same sum term by
  term; the activations are the same functions of them (the kernel's logistic IS 1/(1+e^(−y)), which the reference
  spells out; both clip, recentre and normalise with the same f32 words). No step needs the inputs to be finite.

  Frames: none of @main's host operations and no window of the region writes an argument array (FrameBits,
  FrameIdeal, each at its float instance); the reference is host operations only. The ideal pass rewrote
  nothing, so the kernel's idealization is its own text read on the extended reals.
-/
import proofs.«115522_j11982958756329_2_alg».proof.Defs
import proofs.«115522_j11982958756329_2_alg».proof.Proof.Gen.Kernel
import proofs.«115522_j11982958756329_2_alg».proof.Proof.Gen.KernelIdeal
import proofs.«115522_j11982958756329_2_alg».proof.Proof.Gen.ReferenceIdeal
import proofs.«115522_j11982958756329_2_alg».proof.Proof.Gen.Pre_finite_inputs
import proofs.«115522_j11982958756329_2_alg».proof.Proof.Gen.ReferenceIdeal.Run
import proofs.«115522_j11982958756329_2_alg».proof.Proof.Gen.ReferenceIdeal.Read
import proofs.«115522_j11982958756329_2_alg».proof.Proof.FrameBits
import proofs.«115522_j11982958756329_2_alg».proof.Proof.Payload
import proofs.«115522_j11982958756329_2_alg».proof.Proof.Bridge

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Hand.frame m ρ

/-- The idealized kernel runs and leaves its arguments alone. -/
theorem frame_ki : Cert.frame_KernelIdeal := fun m ρ _ => Cert.KernelIdeal.Hand.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the kernel's is the row
    function of the projection head at every index, and that is the reference's result term. -/
theorem algebraic : Cert.algebraic_KernelIdeal_ReferenceIdeal := by
  intro m ρ m' ρ' _ hagree
  refine ⟨fun c => Cert.KernelIdeal.Hand.G m c, Cert.KernelIdeal.Hand.run_value m ρ Cert.KernelIdeal.Pay.pay_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  obtain ⟨e0, e1, e2, e3, e4, e5, e6, e7, e8, e9, e10, e11⟩ := hagree c
  rw [e0, e1, e2, e3, e4, e5, e6, e7, e8, e9, e10, e11]
  exact (Cert.KernelIdeal.Hand.G_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
